-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S16384x128 : Shape := ⟨2, ![16384, 128]⟩
abbrev S1024x128 : Shape := ⟨2, ![1024, 128]⟩
abbrev S1024x256 : Shape := ⟨2, ![1024, 256]⟩
abbrev S1024 : Shape := ⟨1, ![1024]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S1024x128 : S_.BroadcastsInDim S1024x128 (![] : Fin 0 → Fin S1024x128.rank)
  reducesTo_S1024x128_S_d0_1 : S1024x128.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4096x128 .f32) (main_arg1 : FVec F S16384x128 .f32) (main_arg2 : FVec F S1024x128 .f32) (main_arg3 : FVec F S1024x256 .f32) (main_arg4 : FVec F S1024 .f32) (main_arg5 : FVec F S1024 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_v13 main_v16
-- ==== Kernel.lean ====
abbrev S4096x128 : Shape := ⟨2, ![4096, 128]⟩
abbrev S16384x128 : Shape := ⟨2, ![16384, 128]⟩
abbrev S1024x128 : Shape := ⟨2, ![1024, 128]⟩
abbrev S1024x256 : Shape := ⟨2, ![1024, 256]⟩
abbrev S1024 : Shape := ⟨1, ![1024]⟩
abbrev S1x1024 : Shape := ⟨2, ![1, 1024]⟩
abbrev S256x128 : Shape := ⟨2, ![256, 128]⟩
abbrev S128x1024 : Shape := ⟨2, ![128, 1024]⟩
abbrev S256x1024 : Shape := ⟨2, ![256, 1024]⟩
abbrev S256x256 : Shape := ⟨2, ![256, 256]⟩
abbrev S128x4096 : Shape := ⟨2, ![128, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S16384x128, .f32⟩
  | .hbm, ⟨2, _⟩ => ⟨S1024x128, .f32⟩
  | .hbm, ⟨3, _⟩ => ⟨S1024x256, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S16384x128, .f32⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S1024x128, .f32⟩
  | .local _ .vmem, ⟨4, _⟩ => ⟨S1024x256, .f32⟩
  | .local _ .vmem, ⟨5, _⟩ => ⟨S1x1024, .f32⟩
  | .local _ .vmem, ⟨6, _⟩ => ⟨S256x128, .f32⟩
  | .local _ .vmem, ⟨7, _⟩ => ⟨S256x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v16 : BitVec 32 := Scalar.addi c0_i32 c4_i32
  let c1_i32 : BitVec 32 := 1#32
  ⟨c0_i32, v16, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024_S1x1024 : S1024.ShapeCasts S1x1024
  inb_S256x128_S256x128_0_0 : ∀ a, (![0, 0] : Fin 2 → Nat) a + S256x128.size a ≤ S256x128.size a
  h_S256x128 : 0 < S256x128.numel
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x128_p1_0_S128x1024 : S1024x128.Transposes [1, 0] S128x1024
  broadcasts_S1x1024_S256x1024 : S1x1024.Broadcasts S256x1024
  transposes_S1024x256_p1_0_S256x1024 : S1024x256.Transposes [1, 0] S256x1024
  slices_S256x1024_o0_0_S256x256 : S256x1024.Slices ![0, 0] S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  slices_S256x256_o0_0_S256x128 : S256x256.Slices ![0, 0] S256x128
  transposes_S4096x128_p1_0_S128x4096 : S4096x128.Transposes [1, 0] S128x4096
  reduces_S256x4096_S256 : S256x4096.Reduces [1] S256
  shapeCasts_S256_S256x1 : S256.ShapeCasts S256x1
  broadcasts_S256x1_S256x4096 : S256x1.Broadcasts S256x4096
  concatenates_S256x128_S256x128_S256x256_d1 : Shape.Concatenates [S256x128, S256x128] S256x256 1
  dot_S256x128_S128x1024_S256x1024_1_0_0_1_n_n_wf : DotDims.WF S256x128 S128x1024 S256x1024 [1] [0] [0] [1] [] []
  dot_S256x256_S256x1024_S256x1024_1_0_0_1_n_n_wf : DotDims.WF S256x256 S256x1024 S256x1024 [1] [0] [0] [1] [] []
  dot_S256x128_S128x4096_S256x4096_1_0_0_1_n_n_wf : DotDims.WF S256x128 S128x4096 S256x4096 [1] [0] [0] [1] [] []
  dot_S256x4096_S4096x128_S256x128_1_0_0_1_n_n_wf : DotDims.WF S256x4096 S4096x128 S256x128 [1] [0] [0] [1] [] []
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S16384x128.size a
  hwx0_5 : ∀ i : grid0.Coords, EltTy.bits .f32 = 32 ∨ (Rect.block (s := S16384x128) S256x128.size (cc0_transform_5 i) (hinb0_5 i)).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg1) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x128 : Shape := ⟨2, ![4096, 128]⟩
abbrev S16384x128 : Shape := ⟨2, ![16384, 128]⟩
abbrev S1024x128 : Shape := ⟨2, ![1024, 128]⟩
abbrev S1024x256 : Shape := ⟨2, ![1024, 256]⟩
abbrev S1024 : Shape := ⟨1, ![1024]⟩
abbrev S_ : Shape := ⟨0, ![]⟩
abbrev S16384x256 : Shape := ⟨2, ![16384, 256]⟩
abbrev S128x1024 : Shape := ⟨2, ![128, 1024]⟩
abbrev S16384x1024 : Shape := ⟨2, ![16384, 1024]⟩
abbrev S1x1024 : Shape := ⟨2, ![1, 1024]⟩
abbrev S256x1024 : Shape := ⟨2, ![256, 1024]⟩
abbrev S128x4096 : Shape := ⟨2, ![128, 4096]⟩
abbrev S16384x4096 : Shape := ⟨2, ![16384, 4096]⟩
abbrev S16384 : Shape := ⟨1, ![16384]⟩
abbrev S16384x1 : Shape := ⟨2, ![16384, 1]⟩

abbrev nBuf : Space → Nat
  | .hbm => 244
  | .vmem => 0
  | .smem => 0
  | _ => 0

abbrev hbmTy0_0 (i : Nat) : BufTy := match i % 128 with
  | 0 => ⟨S4096x128, .f32⟩
  | 1 => ⟨S16384x128, .f32⟩
  | 2 => ⟨S1024x128, .f32⟩
  | 3 => ⟨S1024x256, .f32⟩
  | 4 => ⟨S1024, .f32⟩
  | 5 => ⟨S1024, .f32⟩
  | 6 => ⟨S_, .f32⟩
  | 7 => ⟨S16384x256, .f32⟩
  | 8 => ⟨S_, .f32⟩
  | 9 => ⟨S16384x256, .f32⟩
  | 10 => ⟨S128x1024, .f32⟩
  | 11 => ⟨S16384x1024, .f32⟩
  | 12 => ⟨S1024, .f32⟩
  | 13 => ⟨S1x1024, .f32⟩
  | 14 => ⟨S16384x1024, .f32⟩
  | 15 => ⟨S16384x1024, .f32⟩
  | 16 => ⟨S256x1024, .f32⟩
  | 17 => ⟨S16384x1024, .f32⟩
  | 18 => ⟨S16384x1024, .f32⟩
  | 19 => ⟨S16384x256, .f32⟩
  | 20 => ⟨S16384x256, .f32⟩
  | 21 => ⟨S16384x256, .f32⟩
  | 22 => ⟨S16384x256, .f32⟩
  | 23 => ⟨S16384x256, .f32⟩
  | 24 => ⟨S16384x256, .f32⟩
  | 25 => ⟨S_, .f32⟩
  | 26 => ⟨S16384x256, .f32⟩
  | 27 => ⟨S16384x256, .f32⟩
  | 28 => ⟨S_, .f32⟩
  | 29 => ⟨S16384x256, .f32⟩
  | 30 => ⟨S16384x256, .f32⟩
  | 31 => ⟨S16384x256, .f32⟩
  | 32 => ⟨S16384x256, .f32⟩
  | 33 => ⟨S16384x256, .f32⟩
  | 34 => ⟨S_, .f32⟩
  | 35 => ⟨S16384x256, .f32⟩
  | 36 => ⟨S16384x256, .f32⟩
  | 37 => ⟨S_, .f32⟩
  | 38 => ⟨S16384x256, .f32⟩
  | 39 => ⟨S16384x256, .f32⟩
  | 40 => ⟨S16384x256, .f32⟩
  | 41 => ⟨S16384x256, .f32⟩
  | 42 => ⟨S16384x256, .f32⟩
  | 43 => ⟨S16384x256, .f32⟩
  | 44 => ⟨S16384x256, .f32⟩
  | 45 => ⟨S_, .f32⟩
  | 46 => ⟨S16384x256, .f32⟩
  | 47 => ⟨S16384x256, .f32⟩
  | 48 => ⟨S_, .f32⟩
  | 49 => ⟨S16384x256, .f32⟩
  | 50 => ⟨S16384x256, .f32⟩
  | 51 => ⟨S16384x256, .f32⟩
  | 52 => ⟨S16384x256, .f32⟩
  | 53 => ⟨S16384x128, .f32⟩
  | 54 => ⟨S16384x128, .f32⟩
  | 55 => ⟨S128x4096, .f32⟩
  | 56 => ⟨S16384x4096, .f32⟩
  | 57 => ⟨S_, .f32⟩
  | 58 => ⟨S16384, .f32⟩
  | 59 => ⟨S_, .f32⟩
  | 60 => ⟨S16384, .f32⟩
  | 61 => ⟨S16384, .f32⟩
  | 62 => ⟨S16384x1, .f32⟩
  | 63 => ⟨S16384x4096, .f32⟩
  | 64 => ⟨S16384x4096, .f32⟩
  | 65 => ⟨S16384x4096, .f32⟩
  | 66 => ⟨S_, .f32⟩
  | 67 => ⟨S16384, .f32⟩
  | 68 => ⟨S16384x1, .f32⟩
  | 69 => ⟨S16384x4096, .f32⟩
  | 70 => ⟨S16384x4096, .f32⟩
  | 71 => ⟨S16384x128, .f32⟩
  | 72 => ⟨S16384x256, .f32⟩
  | 73 => ⟨S256x1024, .f32⟩
  | 74 => ⟨S16384x1024, .f32⟩
  | 75 => ⟨S16384x1024, .f32⟩
  | 76 => ⟨S16384x256, .f32⟩
  | 77 => ⟨S16384x256, .f32⟩
  | 78 => ⟨S16384x256, .f32⟩
  | 79 => ⟨S16384x256, .f32⟩
  | 80 => ⟨S16384x256, .f32⟩
  | 81 => ⟨S16384x256, .f32⟩
  | 82 => ⟨S_, .f32⟩
  | 83 => ⟨S16384x256, .f32⟩
  | 84 => ⟨S16384x256, .f32⟩
  | 85 => ⟨S_, .f32⟩
  | 86 => ⟨S16384x256, .f32⟩
  | 87 => ⟨S16384x256, .f32⟩
  | 88 => ⟨S16384x256, .f32⟩
  | 89 => ⟨S16384x256, .f32⟩
  | 90 => ⟨S16384x256, .f32⟩
  | 91 => ⟨S_, .f32⟩
  | 92 => ⟨S16384x256, .f32⟩
  | 93 => ⟨S16384x256, .f32⟩
  | 94 => ⟨S_, .f32⟩
  | 95 => ⟨S16384x256, .f32⟩
  | 96 => ⟨S16384x256, .f32⟩
  | 97 => ⟨S16384x256, .f32⟩
  | 98 => ⟨S16384x256, .f32⟩
  | 99 => ⟨S16384x256, .f32⟩
  | 100 => ⟨S16384x256, .f32⟩
  | 101 => ⟨S16384x256, .f32⟩
  | 102 => ⟨S_, .f32⟩
  | 103 => ⟨S16384x256, .f32⟩
  | 104 => ⟨S16384x256, .f32⟩
  | 105 => ⟨S_, .f32⟩
  | 106 => ⟨S16384x256, .f32⟩
  | 107 => ⟨S16384x256, .f32⟩
  | 108 => ⟨S16384x256, .f32⟩
  | 109 => ⟨S16384x256, .f32⟩
  | 110 => ⟨S16384x128, .f32⟩
  | 111 => ⟨S16384x128, .f32⟩
  | 112 => ⟨S128x4096, .f32⟩
  | 113 => ⟨S16384x4096, .f32⟩
  | 114 => ⟨S_, .f32⟩
  | 115 => ⟨S16384, .f32⟩
  | 116 => ⟨S_, .f32⟩
  | 117 => ⟨S16384, .f32⟩
  | 118 => ⟨S16384, .f32⟩
  | 119 => ⟨S16384x1, .f32⟩
  | 120 => ⟨S16384x4096, .f32⟩
  | 121 => ⟨S16384x4096, .f32⟩
  | 122 => ⟨S16384x4096, .f32⟩
  | 123 => ⟨S_, .f32⟩
  | 124 => ⟨S16384, .f32⟩
  | 125 => ⟨S16384x1, .f32⟩
  | 126 => ⟨S16384x4096, .f32⟩
  | 127 => ⟨S16384x4096, .f32⟩
  | _ => ⟨S4096x128, .f32⟩

abbrev hbmTy0_1 (i : Nat) : BufTy := match i % 128 with
  | 0 => ⟨S16384x128, .f32⟩
  | 1 => ⟨S16384x256, .f32⟩
  | 2 => ⟨S256x1024, .f32⟩
  | 3 => ⟨S16384x1024, .f32⟩
  | 4 => ⟨S16384x1024, .f32⟩
  | 5 => ⟨S16384x256, .f32⟩
  | 6 => ⟨S16384x256, .f32⟩
  | 7 => ⟨S16384x256, .f32⟩
  | 8 => ⟨S16384x256, .f32⟩
  | 9 => ⟨S16384x256, .f32⟩
  | 10 => ⟨S16384x256, .f32⟩
  | 11 => ⟨S_, .f32⟩
  | 12 => ⟨S16384x256, .f32⟩
  | 13 => ⟨S16384x256, .f32⟩
  | 14 => ⟨S_, .f32⟩
  | 15 => ⟨S16384x256, .f32⟩
  | 16 => ⟨S16384x256, .f32⟩
  | 17 => ⟨S16384x256, .f32⟩
  | 18 => ⟨S16384x256, .f32⟩
  | 19 => ⟨S16384x256, .f32⟩
  | 20 => ⟨S_, .f32⟩
  | 21 => ⟨S16384x256, .f32⟩
  | 22 => ⟨S16384x256, .f32⟩
  | 23 => ⟨S_, .f32⟩
  | 24 => ⟨S16384x256, .f32⟩
  | 25 => ⟨S16384x256, .f32⟩
  | 26 => ⟨S16384x256, .f32⟩
  | 27 => ⟨S16384x256, .f32⟩
  | 28 => ⟨S16384x256, .f32⟩
  | 29 => ⟨S16384x256, .f32⟩
  | 30 => ⟨S16384x256, .f32⟩
  | 31 => ⟨S_, .f32⟩
  | 32 => ⟨S16384x256, .f32⟩
  | 33 => ⟨S16384x256, .f32⟩
  | 34 => ⟨S_, .f32⟩
  | 35 => ⟨S16384x256, .f32⟩
  | 36 => ⟨S16384x256, .f32⟩
  | 37 => ⟨S16384x256, .f32⟩
  | 38 => ⟨S16384x256, .f32⟩
  | 39 => ⟨S16384x128, .f32⟩
  | 40 => ⟨S16384x128, .f32⟩
  | 41 => ⟨S128x4096, .f32⟩
  | 42 => ⟨S16384x4096, .f32⟩
  | 43 => ⟨S_, .f32⟩
  | 44 => ⟨S16384, .f32⟩
  | 45 => ⟨S_, .f32⟩
  | 46 => ⟨S16384, .f32⟩
  | 47 => ⟨S16384, .f32⟩
  | 48 => ⟨S16384x1, .f32⟩
  | 49 => ⟨S16384x4096, .f32⟩
  | 50 => ⟨S16384x4096, .f32⟩
  | 51 => ⟨S16384x4096, .f32⟩
  | 52 => ⟨S_, .f32⟩
  | 53 => ⟨S16384, .f32⟩
  | 54 => ⟨S16384x1, .f32⟩
  | 55 => ⟨S16384x4096, .f32⟩
  | 56 => ⟨S16384x4096, .f32⟩
  | 57 => ⟨S16384x128, .f32⟩
  | 58 => ⟨S16384x256, .f32⟩
  | 59 => ⟨S256x1024, .f32⟩
  | 60 => ⟨S16384x1024, .f32⟩
  | 61 => ⟨S16384x1024, .f32⟩
  | 62 => ⟨S16384x256, .f32⟩
  | 63 => ⟨S16384x256, .f32⟩
  | 64 => ⟨S16384x256, .f32⟩
  | 65 => ⟨S16384x256, .f32⟩
  | 66 => ⟨S16384x256, .f32⟩
  | 67 => ⟨S16384x256, .f32⟩
  | 68 => ⟨S_, .f32⟩
  | 69 => ⟨S16384x256, .f32⟩
  | 70 => ⟨S16384x256, .f32⟩
  | 71 => ⟨S_, .f32⟩
  | 72 => ⟨S16384x256, .f32⟩
  | 73 => ⟨S16384x256, .f32⟩
  | 74 => ⟨S16384x256, .f32⟩
  | 75 => ⟨S16384x256, .f32⟩
  | 76 => ⟨S16384x256, .f32⟩
  | 77 => ⟨S_, .f32⟩
  | 78 => ⟨S16384x256, .f32⟩
  | 79 => ⟨S16384x256, .f32⟩
  | 80 => ⟨S_, .f32⟩
  | 81 => ⟨S16384x256, .f32⟩
  | 82 => ⟨S16384x256, .f32⟩
  | 83 => ⟨S16384x256, .f32⟩
  | 84 => ⟨S16384x256, .f32⟩
  | 85 => ⟨S16384x256, .f32⟩
  | 86 => ⟨S16384x256, .f32⟩
  | 87 => ⟨S16384x256, .f32⟩
  | 88 => ⟨S_, .f32⟩
  | 89 => ⟨S16384x256, .f32⟩
  | 90 => ⟨S16384x256, .f32⟩
  | 91 => ⟨S_, .f32⟩
  | 92 => ⟨S16384x256, .f32⟩
  | 93 => ⟨S16384x256, .f32⟩
  | 94 => ⟨S16384x256, .f32⟩
  | 95 => ⟨S16384x256, .f32⟩
  | 96 => ⟨S16384x128, .f32⟩
  | 97 => ⟨S16384x128, .f32⟩
  | 98 => ⟨S128x4096, .f32⟩
  | 99 => ⟨S16384x4096, .f32⟩
  | 100 => ⟨S_, .f32⟩
  | 101 => ⟨S16384, .f32⟩
  | 102 => ⟨S_, .f32⟩
  | 103 => ⟨S16384, .f32⟩
  | 104 => ⟨S16384, .f32⟩
  | 105 => ⟨S16384x1, .f32⟩
  | 106 => ⟨S16384x4096, .f32⟩
  | 107 => ⟨S16384x4096, .f32⟩
  | 108 => ⟨S16384x4096, .f32⟩
  | 109 => ⟨S_, .f32⟩
  | 110 => ⟨S16384, .f32⟩
  | 111 => ⟨S16384x1, .f32⟩
  | 112 => ⟨S16384x4096, .f32⟩
  | 113 => ⟨S16384x4096, .f32⟩
  | 114 => ⟨S16384x128, .f32⟩
  | 115 => ⟨S16384x256, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_12 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_14 : Ref sig .tc := ⟨.hbm, 102, rfl⟩
abbrev main_v81 : Ref sig .tc := ⟨.hbm, 103, rfl⟩
abbrev main_v82 : Ref sig .tc := ⟨.hbm, 104, rfl⟩
abbrev main_cst_15 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_16 : Ref sig .tc := ⟨.hbm, 114, rfl⟩
abbrev main_v91 : Ref sig .tc := ⟨.hbm, 115, rfl⟩
abbrev main_cst_17 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_18 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_19 : Ref sig .tc := ⟨.hbm, 139, rfl⟩
abbrev main_v113 : Ref sig .tc := ⟨.hbm, 140, rfl⟩
abbrev main_v114 : Ref sig .tc := ⟨.hbm, 141, rfl⟩
abbrev main_cst_20 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_21 : Ref sig .tc := ⟨.hbm, 148, rfl⟩
abbrev main_v120 : Ref sig .tc := ⟨.hbm, 149, rfl⟩
abbrev main_v121 : Ref sig .tc := ⟨.hbm, 150, rfl⟩
abbrev main_cst_22 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_23 : Ref sig .tc := ⟨.hbm, 159, rfl⟩
abbrev main_v129 : Ref sig .tc := ⟨.hbm, 160, rfl⟩
abbrev main_v130 : Ref sig .tc := ⟨.hbm, 161, rfl⟩
abbrev main_cst_24 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_25 : Ref sig .tc := ⟨.hbm, 171, rfl⟩
abbrev main_v139 : Ref sig .tc := ⟨.hbm, 172, rfl⟩
abbrev main_cst_26 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_27 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_cst_28 : Ref sig .tc := ⟨.hbm, 196, rfl⟩
abbrev main_v161 : Ref sig .tc := ⟨.hbm, 197, rfl⟩
abbrev main_v162 : Ref sig .tc := ⟨.hbm, 198, rfl⟩
abbrev main_cst_29 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_cst_30 : Ref sig .tc := ⟨.hbm, 205, rfl⟩
abbrev main_v168 : Ref sig .tc := ⟨.hbm, 206, rfl⟩
abbrev main_v169 : Ref sig .tc := ⟨.hbm, 207, rfl⟩
abbrev main_cst_31 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_cst_32 : Ref sig .tc := ⟨.hbm, 216, rfl⟩
abbrev main_v177 : Ref sig .tc := ⟨.hbm, 217, rfl⟩
abbrev main_v178 : Ref sig .tc := ⟨.hbm, 218, rfl⟩
abbrev main_cst_33 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_cst_34 : Ref sig .tc := ⟨.hbm, 228, rfl⟩
abbrev main_v187 : Ref sig .tc := ⟨.hbm, 229, rfl⟩
abbrev main_cst_35 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_cst_36 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩

abbrev nD : Nat := 1
abbrev τ : Topo := Topo.v7x

variable {F : FTy → Type} [FloatOps F]

class Facts₀ : Prop where
  bcast_S_S16384x256 : S_.BroadcastsInDim S16384x256 (![] : Fin 0 → Fin S16384x256.rank)
  transposes_S1024x128_S128x1024_1_0 : S1024x128.Transposes [1, 0] S128x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  transposes_S1024x256_S256x1024_1_0 : S1024x256.Transposes [1, 0] S256x1024
  slices_S16384x1024_S16384x256_0_0 : S16384x1024.Slices ![0, 0] S16384x256
  slices_S16384x1024_S16384x256_0_256 : S16384x1024.Slices ![0, 256] S16384x256
  slices_S16384x1024_S16384x256_0_512 : S16384x1024.Slices ![0, 512] S16384x256
  slices_S16384x1024_S16384x256_0_768 : S16384x1024.Slices ![0, 768] S16384x256
  slices_S16384x256_S16384x128_0_0 : S16384x256.Slices ![0, 0] S16384x128
  transposes_S4096x128_S128x4096_1_0 : S4096x128.Transposes [1, 0] S128x4096
  reducesTo_S16384x4096_S16384_d1 : S16384x4096.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  concatenates_S16384x128_S16384x128_S16384x256_d1 : Shape.Concatenates [S16384x128, S16384x128] S16384x256 1
  dot_S16384x128_S128x1024_S16384x1024_1_0_0_1_n_n_wf : DotDims.WF S16384x128 S128x1024 S16384x1024 [1] [0] [0] [1] [] []
  dot_S16384x256_S256x1024_S16384x1024_1_0_0_1_n_n_wf : DotDims.WF S16384x256 S256x1024 S16384x1024 [1] [0] [0] [1] [] []
  dot_S16384x128_S128x4096_S16384x4096_1_0_0_1_n_n_wf : DotDims.WF S16384x128 S128x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x128_S128x1024_S16384x1024_1_0_0_1_n_n : DotDims S16384x128 S128x1024 S16384x1024 where
  lhsContracting := [1]
  rhsContracting := [0]
  lhsNonContracting := [0]
  rhsNonContracting := [1]
  lhsBatch := []
  rhsBatch := []
  wf := dot_S16384x128_S128x1024_S16384x1024_1_0_0_1_n_n_wf
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x128_S128x4096_S16384x4096_1_0_0_1_n_n : DotDims S16384x128 S128x4096 S16384x4096 where
  lhsContracting := [1]
  rhsContracting := [0]
  lhsNonContracting := [0]
  rhsNonContracting := [1]
  lhsBatch := []
  rhsBatch := []
  wf := dot_S16384x128_S128x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.RowSpec.lean ====
/-
  One query row of the attention recurrence, as a function on the extended reals.

  A query row q (128 numbers) is refined four times against a support set (4096 rows of 128 numbers) by a long
  short-term memory cell whose hidden state is the pair (current estimate, attention read-out):

    gates  = q · W_ihᵀ + bias + hr · W_hhᵀ                           (1024 numbers: input, forget, cell, output gate, 256 each)
    c'     = σ(forget) · c + σ(input) · tanh(cell)                   (256 numbers)
    h'     = q + (σ(output) · tanh(c')) restricted to its first 128 entries
    score  = h' · supportᵀ                                          (4096 numbers)
    weight = exp(score − top) / Σ exp(score − top),  top the largest score (never below −∞'s word)
    read   = weight · support                                        (128 numbers)
    hr'    = h' followed by read                                     (256 numbers)

  from hr = c = 0. Every row of the batch goes through this alone: nothing in it looks at another query row. The sums
  are the extended reals' commutative ones, so no order of summation is part of the definition.
-/
import Idealize.ShloMosaic.PureOps.Ideal
import Idealize.ShloMosaic.Lib.ValueIdx

noncomputable section

open scoped BigOperators

namespace Cert.RowSpec

open Idealize.ShloMosaic Idealize.ShloMosaic.ValueIdx

/-- Row r of a matrix, as a function of the column. -/
abbrev row {a b : ℕ} {α : Type} (X : (⟨2, ![a, b]⟩ : Shape).Idx → α) (r : Fin a) : Fin b → α := fun k => X (ix2 r k)

/-- The single-precision word of minus infinity, as the extended real it denotes. -/
abbrev negInf : EReal := Ideal.ofBits .f32 0xFF800000#32

/-- The single-precision word of zero, as the extended real it denotes. -/
abbrev zeroW : EReal := Ideal.ofBits .f32 0x00000000#32

/-- What every row shares: the support set, the two weight matrices (stored one output unit per row), the bias. -/
@[ext] structure Params where
  supp : Fin 4096 → Fin 128 → EReal
  wih : Fin 1024 → Fin 128 → EReal
  whh : Fin 1024 → Fin 256 → EReal
  bias : Fin 1024 → EReal

/-- Where the input gate of hidden unit j sits among the 1024 gate entries. -/
def gI (j : Fin 256) : Fin 1024 := ⟨j.val, by have := j.isLt; omega⟩
/-- … the forget gate, -/
def gF (j : Fin 256) : Fin 1024 := ⟨256 + j.val, by have := j.isLt; omega⟩
/-- … the cell candidate, -/
def gG (j : Fin 256) : Fin 1024 := ⟨512 + j.val, by have := j.isLt; omega⟩
/-- … the output gate. -/
def gO (j : Fin 256) : Fin 1024 := ⟨768 + j.val, by have := j.isLt; omega⟩
/-- The first 128 of the 256 hidden units. -/
def lo (j : Fin 128) : Fin 256 := ⟨j.val, by have := j.isLt; omega⟩

/-- The query's contribution to the gates, the same at every step: q · W_ihᵀ + bias. -/
def inProj (P : Params) (q : Fin 128 → EReal) (j : Fin 1024) : EReal := (∑ k : Fin 128, q k * P.wih j k) + P.bias j

/-- The gates of one step: the query's contribution plus hr · W_hhᵀ. -/
def gates (P : Params) (q : Fin 128 → EReal) (hr : Fin 256 → EReal) (j : Fin 1024) : EReal :=
  inProj P q j + ∑ k : Fin 256, hr k * P.whh j k

/-- The new cell state: σ(forget) · c + σ(input) · tanh(candidate). -/
def cell (g : Fin 1024 → EReal) (c : Fin 256 → EReal) (j : Fin 256) : EReal :=
  Ideal.logistic (g (gF j)) * c j + Ideal.logistic (g (gI j)) * Ideal.tanh (g (gG j))

/-- The new estimate: the query plus the first half of σ(output) · tanh(new cell state). -/
def estimate (q : Fin 128 → EReal) (g : Fin 1024 → EReal) (c : Fin 256 → EReal) (j : Fin 128) : EReal :=
  q j + Ideal.logistic (g (gO (lo j))) * Ideal.tanh (c (lo j))

/-- The estimate's inner product with every support row. -/
def score (P : Params) (h : Fin 128 → EReal) (s : Fin 4096) : EReal := ∑ k : Fin 128, h k * P.supp s k

/-- The largest score, taken from minus infinity. -/
def top (sc : Fin 4096 → EReal) : EReal := max negInf ((Finset.univ : Finset (Fin 4096)).fold max negInf sc)

/-- The attention weight of support row s. -/
def weight (sc : Fin 4096 → EReal) (s : Fin 4096) : EReal :=
  Ideal.div (Ideal.exp (sc s - top sc)) (∑ k : Fin 4096, Ideal.exp (sc k - top sc))

/-- The attention read-out: the support rows averaged by their weights. -/
def readout (P : Params) (sc : Fin 4096 → EReal) (j : Fin 128) : EReal := ∑ s : Fin 4096, weight sc s * P.supp s j

/-- Two rows of 128 set end to end. -/
def join (h r : Fin 128 → EReal) (k : Fin 256) : EReal :=
  if hk : k.val < 128 then h ⟨k.val, hk⟩ else r ⟨k.val - 128, by have := k.isLt; omega⟩

/-- What one row carries from step to step: hidden pair, cell state, estimate. -/
abbrev State := (Fin 256 → EReal) × (Fin 256 → EReal) × (Fin 128 → EReal)

/-- One step of the recurrence on one row. The estimate carried in is not read. -/
def step (P : Params) (q : Fin 128 → EReal) (s : State) : State :=
  (join (estimate q (gates P q s.1) (cell (gates P q s.1) s.2.1))
      (readout P (score P (estimate q (gates P q s.1) (cell (gates P q s.1) s.2.1)))),
    cell (gates P q s.1) s.2.1,
    estimate q (gates P q s.1) (cell (gates P q s.1) s.2.1))

/-- Where a row starts: hidden pair and cell state zero, the estimate the query itself. -/
def start (q : Fin 128 → EReal) : State := (fun _ => zeroW, fun _ => zeroW, q)

/-- The estimate after four steps. -/
def result (P : Params) (q : Fin 128 → EReal) : Fin 128 → EReal := ((step P q)^[4] (start q)).2.2

/-- The whole result: every query row through the recurrence by itself, the bias the sum of the two bias vectors. -/
def resultArray (supp : (⟨2, ![4096, 128]⟩ : Shape).Idx → EReal) (q : (⟨2, ![16384, 128]⟩ : Shape).Idx → EReal)
    (wih : (⟨2, ![1024, 128]⟩ : Shape).Idx → EReal) (whh : (⟨2, ![1024, 256]⟩ : Shape).Idx → EReal)
    (b1 b2 : (⟨1, ![1024]⟩ : Shape).Idx → EReal) : (⟨2, ![16384, 128]⟩ : Shape).Idx → EReal :=
  fun i => result ⟨fun s k => supp (ix2 s k), fun j k => wih (ix2 j k), fun j k => whh (ix2 j k),
    fun j => b1 (ix1 j) + b2 (ix1 j)⟩ (row q (i 0)) (i 1)

end Cert.RowSpec

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«114670_j86131274154741_1_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«114670_j86131274154741_1_alg».proof.Proof.LibDenseRows
import proofs.«114670_j86131274154741_1_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibSoftmaxRows.lean ====
/-
  General lemmas for kernels that pool over a leading axis and take a softmax along the last axis, read at the exact
  (extended-real) instance. Generic in the extents.

  * `leadSum_apply`: a sum of a [C, A, B] array along its FIRST axis is at (p, q) the plain sum over c of the array at (c, p, q).
  * `leadMax_apply`: a maximum of a [C, A, B] array along its first axis, from a starting pattern, is at (p, q) the fold of
    max from that pattern's value over c of the array at (c, p, q).
  * `rowMax_apply`: a maximum of an [A, B] array along its last axis is at p the fold of max over k of the array at (p, k).
  * `keepdimsMax_apply`: the same kept as an [A, 1] column, at (p, u).
  * `broadcastTo_1ab_cab_apply`: a [1, A, B] array repeated C times along the first axis reads, at (c, p, q), the array at (0, p, q).
  * `softmaxRows_apply`: the softmax of an [A, B] array along its last axis as a kernel body spells it — row maximum from minus
    infinity kept as a column and repeated along the rows, subtracted, exponentiated, the row sum of that kept as a column and
    repeated, the quotient — is at (p, q) exp (f (p, q) − M) / ∑ₖ exp (f (p, k) − M), M the fold of max over the row.
-/
import Idealize.ShloMosaic.Lib.ValueIdx
import Idealize.ShloMosaic.Lib.ValueLayout
import Idealize.ShloMosaic.Lib.Pipeline.Value
import Idealize.ShloMosaic.PureOps.Ideal.Laws
import proofs.«114670_j86131274154741_1_alg».proof.Proof.LibColumns

noncomputable section

open scoped BigOperators

namespace Cert.SoftmaxRows

open Idealize.ShloMosaic Idealize.ShloMosaic.ValueIdx

/-! ## Pooling over the first axis of a rank-three array -/

/-- The sum of a [C, A, B] array along its first axis, at (p, q): the sum over c of the array at (c, p, q). -/
theorem leadSum_apply {C A B : ℕ} {φ : FTy} (src : FVec Ideal ⟨3, ![C, A, B]⟩ φ) (acc : BitVec φ.bits)
    (h : (⟨3, ![C, A, B]⟩ : Shape).Reduces [0] ⟨2, ![A, B]⟩) (hφ : FKind.Formats φ) (hacc : acc = FKind.add.neutral φ hφ)
    (p : Fin A) (q : Fin B) :
    multiReduction .add [0] ⟨2, ![A, B]⟩ src acc h hφ hacc (ix2 p q) = ∑ c : Fin C, src (ix3 c p q) := by
  refine (Ideal.multiReduction_add_single src acc h hφ hacc (ix2 p q)).trans ?_
  refine Finset.sum_congr rfl fun k _ => congrArg src (funext fun d => Fin.ext ?_)
  rw [h.lift_val]
  match d with
  | ⟨0, _⟩ => rfl
  | ⟨1, _⟩ => rfl
  | ⟨2, _⟩ => rfl

/-- The maximum of a [C, A, B] array along its first axis, at (p, q): the fold of max, from the starting pattern's value,
    over c of the array at (c, p, q). -/
theorem leadMax_apply {C A B : ℕ} {φ : FTy} (src : FVec Ideal ⟨3, ![C, A, B]⟩ φ) (acc : BitVec φ.bits)
    (h : (⟨3, ![C, A, B]⟩ : Shape).Reduces [0] ⟨2, ![A, B]⟩) (hφ : FKind.Formats φ) (hacc : acc = FKind.maximumf.neutral φ hφ)
    (p : Fin A) (q : Fin B) :
    multiReduction .maximumf [0] ⟨2, ![A, B]⟩ src acc h hφ hacc (ix2 p q)
      = (Finset.univ : Finset (Fin C)).fold max (Ideal.ofBits φ acc) (fun c => src (ix3 c p q)) := by
  refine (Ideal.multiReduction_maximumf_single src acc h hφ hacc (ix2 p q)).trans ?_
  refine congrArg ((Finset.univ : Finset (Fin C)).fold max (Ideal.ofBits φ acc)) (funext fun k => congrArg src (funext fun d => Fin.ext ?_))
  rw [h.lift_val]
  match d with
  | ⟨0, _⟩ => rfl
  | ⟨1, _⟩ => rfl
  | ⟨2, _⟩ => rfl

/-! ## A row's maximum -/

/-- The maximum of an [A, B] array along its last axis, at p: the fold of max over k of the array at (p, k). -/
theorem rowMax_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  refine (Ideal.multiReduction_maximumf_single src acc h hφ hacc (ix1 p)).trans ?_
  refine congrArg ((Finset.univ : Finset (Fin B)).fold max (Ideal.ofBits φ acc)) (funext fun k => congrArg src (funext fun d => Fin.ext ?_))
  rw [h.lift_val]
  match d with
  | ⟨0, _⟩ => rfl
  | ⟨1, _⟩ => rfl

/-- The same kept as an [A, 1] column: at (p, u) the fold of max over the row p. -/
theorem keepdimsMax_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ)
    (hs : (⟨1, ![A]⟩ : Shape).ShapeCasts ⟨2, ![A, 1]⟩) (p : Fin A) (u : Fin 1) :
    shapeCast ⟨2, ![A, 1]⟩ (multiReduction .maximumf [1] ⟨1, ![A]⟩ src acc h hφ hacc) hs (ix2 p u)
      = (Finset.univ : Finset (Fin B)).fold max (Ideal.ofBits φ acc) (fun k => src (ix2 p k)) :=
  (Cert.DenseRows.shapeCast_a_a1_apply _ hs p u).trans (rowMax_apply src acc h hφ hacc p)

/-! ## One plane repeated along a new first axis -/

/-- A [1, A, B] array broadcast to [C, A, B] reads, at (c, p, q), the array at (0, p, q). -/
theorem broadcastTo_1ab_cab_apply {α : Type} {C A B : ℕ} (v : (⟨3, ![1, A, B]⟩ : Shape).Idx → α)
    (h : (⟨3, ![1, A, B]⟩ : Shape).Broadcasts ⟨3, ![C, A, B]⟩) (c : Fin C) (p : Fin A) (q : Fin B) :
    broadcastTo ⟨3, ![C, A, B]⟩ v h (ix3 c p q) = v (ix3 (0 : Fin 1) p q) := by
  have hA : A = 1 → p.val = 0 := fun e => by have := p.isLt; omega
  have hB : B = 1 → q.val = 0 := fun e => by have := q.isLt; omega
  refine broadcastTo_apply v h (ix3 c p q) (ix3 (0 : Fin 1) p q) fun ax => ?_
  match ax with
  | ⟨0, _⟩ => rfl
  | ⟨1, _⟩ =>
    show p.val = if A = 1 then 0 else p.val
    split
    · exact hA ‹_›
    · rfl
  | ⟨2, _⟩ =>
    show q.val = if B = 1 then 0 else q.val
    split
    · exact hB ‹_›
    · rfl

/-! ## The softmax along the last axis, as a kernel body spells it -/

/-- Row maximum from minus infinity kept as a column and repeated along the rows, subtracted, exponentiated; the row sum of
    that kept as a column and repeated; the quotient. At (p, q): exp (f (p, q) − M) / ∑ₖ exp (f (p, k) − M), where M is the
    fold of max over row p from the starting pattern's value. -/
theorem softmaxRows_apply {A B : ℕ} (f : FVec Ideal ⟨2, ![A, B]⟩ .f32) (lo : BitVec FTy.f32.bits)
    (hr : (⟨2, ![A, B]⟩ : Shape).Reduces [1] ⟨1, ![A]⟩) (hφ : FKind.Formats .f32)
    (hmax : lo = FKind.maximumf.neutral .f32 hφ)
    (hadd : (0x00000000#32 : BitVec FTy.f32.bits) = FKind.add.neutral .f32 hφ)
    (hs : (⟨1, ![A]⟩ : Shape).ShapeCasts ⟨2, ![A, 1]⟩) (hb : (⟨2, ![A, 1]⟩ : Shape).Broadcasts ⟨2, ![A, B]⟩)
    (p : Fin A) (q : Fin B) :
    divf
      (exp (subf f (broadcastTo ⟨2, ![A, B]⟩ (shapeCast ⟨2, ![A, 1]⟩ (multiReduction .maximumf [1] ⟨1, ![A]⟩ f lo hr hφ hmax) hs) hb)))
      (broadcastTo ⟨2, ![A, B]⟩ (shapeCast ⟨2, ![A, 1]⟩
        (multiReduction .add [1] ⟨1, ![A]⟩
          (exp (subf f (broadcastTo ⟨2, ![A, B]⟩ (shapeCast ⟨2, ![A, 1]⟩ (multiReduction .maximumf [1] ⟨1, ![A]⟩ f lo hr hφ hmax) hs) hb)))
          0x00000000#32 hr hφ hadd) hs) hb) (ix2 p q)
      = Ideal.div
          (Ideal.exp (f (ix2 p q) - (Finset.univ : Finset (Fin B)).fold max (Ideal.ofBits .f32 lo) (fun k => f (ix2 p k))))
          (∑ k : Fin B, Ideal.exp (f (ix2 p k) - (Finset.univ : Finset (Fin B)).fold max (Ideal.ofBits .f32 lo) (fun k => f (ix2 p k)))) := by
  have hm : ∀ k : Fin B,
      broadcastTo ⟨2, ![A, B]⟩ (shapeCast ⟨2, ![A, 1]⟩ (multiReduction .maximumf [1] ⟨1, ![A]⟩ f lo hr hφ hmax) hs) hb (ix2 p k)
        = (Finset.univ : Finset (Fin B)).fold max (Ideal.ofBits .f32 lo) (fun k => f (ix2 p k)) := fun k =>
    (Cert.Columns.broadcastTo_a1_ab_apply _ hb p k).trans (keepdimsMax_apply f lo hr hφ hmax hs p 0)
  have he : ∀ k : Fin B,
      exp (subf f (broadcastTo ⟨2, ![A, B]⟩ (shapeCast ⟨2, ![A, 1]⟩ (multiReduction .maximumf [1] ⟨1, ![A]⟩ f lo hr hφ hmax) hs) hb)) (ix2 p k)
        = Ideal.exp (f (ix2 p k) - (Finset.univ : Finset (Fin B)).fold max (Ideal.ofBits .f32 lo) (fun k => f (ix2 p k))) := fun k =>
    congrArg (fun z => Ideal.exp (f (ix2 p k) - z)) (hm k)
  refine congrArg₂ Ideal.div (he q) ?_
  refine ((Cert.Columns.broadcastTo_a1_ab_apply _ hb p q).trans (Cert.Columns.keepdimsSum_apply _ _ hr hφ hadd hs p 0)).trans ?_
  exact Finset.sum_congr rfl fun k _ => he k

end Cert.SoftmaxRows

end
-- ==== Proof.LibAttnBody.lean ====
/-
  General lemmas for attention kernel bodies, read at the exact (extended-real) instance, one entry at a time. Generic in
  the extents.

  * `shapeCast_11ab_ab_apply`, `shapeCast_ab_11ab_apply`, `shapeCast_11a_1a_apply`: the reshapes [1, 1, a, b] → [a, b],
    [a, b] → [1, 1, a, b] and [1, 1, a] → [1, a] read at an index (a block that arrives with two leading unit axes).
  * `denseT_bias_apply`: an [M, K] array times the TRANSPOSE (taken in the body) of an [N, K] weight array into a zero
    accumulator, plus a [1, N] bias row repeated down the rows: at (p, j) the sum over k of left (p, k) · weights (j, k),
    plus the bias at j.
  * `scores_apply`: a product of a [1, 1, A, E] block with a [1, 1, E, B] block (unit axes dropped) into a zero
    accumulator, plus a [1, 1, B] mask row repeated down the rows: at (p, k) the sum over d of left (0, 0, p, d) ·
    right (0, 0, d, k), plus the mask at (0, 0, k).
  * `softmaxRows_apply_of`: the softmax of an [A, B] array along its last axis as a kernel body spells it (row maximum
    from a starting pattern kept as a column and repeated, subtracted, exponentiated, the row sum kept as a column and
    repeated, the quotient), the entries of row p given by a formula R: exp (R q − M) / ∑ₖ exp (R k − M), M the fold of max
    over R.
-/
import proofs.«114670_j86131274154741_1_alg».proof.Proof.LibPlainLayers
import proofs.«114670_j86131274154741_1_alg».proof.Proof.LibSoftmaxRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.AttnBody

open Idealize.ShloMosaic Idealize.ShloMosaic.ValueIdx

/-! ## Reshapes that add or drop two leading unit axes -/

/-- A [1, 1, a, b] array recast as [a, b] reads, at (i, j), the array at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array recast as [1, 1, a, b] reads, at (u, v, i, j), the array at (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A [1, 1, a] array recast as [1, a] reads, at (u, i), the array at (0, 0, i). -/
theorem shapeCast_11a_1a_apply {α : Type} {a : ℕ} (x : (⟨3, ![1, 1, a]⟩ : Shape).Idx → α)
    (h : (⟨3, ![1, 1, a]⟩ : Shape).ShapeCasts ⟨2, ![1, a]⟩) (u : Fin 1) (i : Fin a) :
    shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-! ## A dense layer whose weights arrive as [N, K] rows and are transposed in the body -/

/-- The product of an [M, K] array with the transpose of an [N, K] array into a zero accumulator, plus a [1, N] bias row
    repeated down the rows: at (p, j) the sum over k of left (p, k) times weights (j, k), plus the bias at j. -/
theorem denseT_bias_apply {M K N : ℕ} {φ₁ φ₂ : FTy} (D : DotDims ⟨2, ![M, K]⟩ ⟨2, ![K, N]⟩ ⟨2, ![M, N]⟩)
    (hD : D = DotDims.plain M K N) (prec : Option ContractPrecision)
    (h : FVec Ideal ⟨2, ![M, K]⟩ φ₁) (w : FVec Ideal ⟨2, ![N, K]⟩ φ₂)
    (ht : (⟨2, ![N, K]⟩ : Shape).Transposes [1, 0] ⟨2, ![K, N]⟩) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (p : Fin M) (j : Fin N) :
    addf (matmul D prec h (transpose ⟨2, ![K, N]⟩ [1, 0] w ht) (constant ⟨2, ![M, N]⟩ .f32 0x00000000#32))
        (broadcastTo ⟨2, ![M, N]⟩ (shapeCast ⟨2, ![1, N]⟩ b hc) hb) (ix2 p j)
      = (∑ k : Fin K, h (ix2 p k) * w (ix2 j k)) + b (ix2 (0 : Fin 1) j) :=
  congrArg₂ (· + ·)
    ((Cert.PlainLayers.plainMM_of_eq D hD prec h _ p j).trans
      (Finset.sum_congr rfl fun k _ => congrArg (h (ix2 p k) * ·) (transpose_ix2_apply w ht k j)))
    ((broadcastTo_1b_ab_apply _ hb p j).trans (congrFun (shapeCast_self b hc) _))

/-! ## The scores of a block and the softmax of rows given by a formula -/

/-- A product of two arrays that arrive with two leading unit axes, plus a mask row that arrives with two leading unit
    axes and is repeated down the rows: at (p, k) the sum over d of left (0, 0, p, d) times right (0, 0, d, k), plus the
    mask at (0, 0, k). -/
theorem scores_apply {A E B : ℕ} {φ₁ φ₂ : FTy} (D : DotDims ⟨2, ![A, E]⟩ ⟨2, ![E, B]⟩ ⟨2, ![A, B]⟩)
    (hD : D = DotDims.plain A E B) (prec : Option ContractPrecision)
    (x0 : FVec Ideal ⟨4, ![1, 1, A, E]⟩ φ₁) (h0 : (⟨4, ![1, 1, A, E]⟩ : Shape).ShapeCasts ⟨2, ![A, E]⟩)
    (x1 : FVec Ideal ⟨4, ![1, 1, E, B]⟩ φ₂) (h1 : (⟨4, ![1, 1, E, B]⟩ : Shape).ShapeCasts ⟨2, ![E, B]⟩)
    (x3 : FVec Ideal ⟨3, ![1, 1, B]⟩ .f32) (h3 : (⟨3, ![1, 1, B]⟩ : Shape).ShapeCasts ⟨2, ![1, B]⟩)
    (hb : (⟨2, ![1, B]⟩ : Shape).Broadcasts ⟨2, ![A, B]⟩) (p : Fin A) (k : Fin B) :
    addf (matmul D prec (shapeCast ⟨2, ![A, E]⟩ x0 h0) (shapeCast ⟨2, ![E, B]⟩ x1 h1) (constant ⟨2, ![A, B]⟩ .f32 0x00000000#32))
        (broadcastTo ⟨2, ![A, B]⟩ (shapeCast ⟨2, ![1, B]⟩ x3 h3) hb) (ix2 p k)
      = (∑ d : Fin E, x0 (ix4 (0 : Fin 1) (0 : Fin 1) p d) * x1 (ix4 (0 : Fin 1) (0 : Fin 1) d k))
          + x3 (ix3 (0 : Fin 1) (0 : Fin 1) k) :=
  congrArg₂ (· + ·)
    ((Cert.PlainLayers.plainMM_of_eq D hD prec _ _ p k).trans
      (Finset.sum_congr rfl fun d _ => congrArg₂ (· * ·) (shapeCast_11ab_ab_apply x0 h0 p d) (shapeCast_11ab_ab_apply x1 h1 d k)))
    ((broadcastTo_1b_ab_apply _ hb p k).trans (shapeCast_11a_1a_apply x3 h3 0 k))

/-- The softmax of an array along its last axis as a body spells it, the entries of row p given by a formula R. -/
theorem softmaxRows_apply_of {A B : ℕ} (f : FVec Ideal ⟨2, ![A, B]⟩ .f32) (R : Fin B → EReal) (p : Fin A)
    (hf : ∀ k, f (ix2 p k) = R k) (lo : BitVec FTy.f32.bits)
    (hr : (⟨2, ![A, B]⟩ : Shape).Reduces [1] ⟨1, ![A]⟩) (hφ : FKind.Formats .f32)
    (hmax : lo = FKind.maximumf.neutral .f32 hφ)
    (hadd : (0x00000000#32 : BitVec FTy.f32.bits) = FKind.add.neutral .f32 hφ)
    (hs : (⟨1, ![A]⟩ : Shape).ShapeCasts ⟨2, ![A, 1]⟩) (hb : (⟨2, ![A, 1]⟩ : Shape).Broadcasts ⟨2, ![A, B]⟩) (q : Fin B) :
    divf
      (exp (subf f (broadcastTo ⟨2, ![A, B]⟩ (shapeCast ⟨2, ![A, 1]⟩ (multiReduction .maximumf [1] ⟨1, ![A]⟩ f lo hr hφ hmax) hs) hb)))
      (broadcastTo ⟨2, ![A, B]⟩ (shapeCast ⟨2, ![A, 1]⟩
        (multiReduction .add [1] ⟨1, ![A]⟩
          (exp (subf f (broadcastTo ⟨2, ![A, B]⟩ (shapeCast ⟨2, ![A, 1]⟩ (multiReduction .maximumf [1] ⟨1, ![A]⟩ f lo hr hφ hmax) hs) hb)))
          0x00000000#32 hr hφ hadd) hs) hb) (ix2 p q)
      = Ideal.div
          (Ideal.exp (R q - (Finset.univ : Finset (Fin B)).fold max (Ideal.ofBits .f32 lo) R))
          (∑ k : Fin B, Ideal.exp (R k - (Finset.univ : Finset (Fin B)).fold max (Ideal.ofBits .f32 lo) R)) := by
  have hR : (fun k => f (ix2 p k)) = R := funext hf
  rw [Cert.SoftmaxRows.softmaxRows_apply f lo hr hφ hmax hadd hs hb p q, hR]
  simp only [hf]

end Cert.AttnBody

end
-- ==== Proof.KernelRows.lean ====
/-
  The kernel body's arithmetic read one entry at a time, at the exact (extended-real) instance.

  A block holds 256 query rows. Each of the body's four values per loop trip — the gates, the new cell state, the new
  estimate, the new hidden pair — is, at row p of the block, the corresponding function of the specification applied to
  row p of the operands: the matrix products are plain sums over the contracted index (the change to a narrower float
  format before each product is the identity here), the cuts of the gate array pick the four gates' positions, the
  maximum and the sum along a row of scores are the fold of max and the plain sum over the 4096 support rows, and the
  final concatenation sets the estimate and the read-out end to end.
-/
import proofs.«114670_j86131274154741_1_alg».proof.Proof.Gen.KernelIdeal.Skeleton
import proofs.«114670_j86131274154741_1_alg».proof.Proof.RowSpec
import proofs.«114670_j86131274154741_1_alg».proof.Proof.LibAttnBody
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelRows

open Cert.KernelIdeal Cert.KernelIdeal.Gen Cert.RowSpec Idealize.ShloMosaic Idealize.ShloMosaic.ValueIdx

/-- The shared parameters as the body finds them in its blocks: the support set, the two weight matrices, and the bias
    as a one-row matrix. -/
def params (x1 : Vec Ideal S4096x128 .f32) (x2 : Vec Ideal S1024x128 .f32) (x3 : Vec Ideal S1024x256 .f32)
    (x4 : Vec Ideal S1x1024 .f32) : Params :=
  ⟨fun s k => x1 (ix2 s k), fun j k => x2 (ix2 j k), fun j k => x3 (ix2 j k), fun j => x4 (ix2 (0 : Fin 1) j)⟩

variable (x0 : Vec Ideal S256x128 .f32) (x1 : Vec Ideal S4096x128 .f32) (x2 : Vec Ideal S1024x128 .f32)
  (x3 : Vec Ideal S1024x256 .f32) (x4 : Vec Ideal S1x1024 .f32)

/-! ## The gates -/

/-- The gate array at (p, j): the query row's projection plus bias, plus the hidden pair's projection. -/
theorem gates_apply (hr : FVec Ideal S256x256 .f32) (p : Fin 256) (j : Fin 1024) :
    k0_pay3 (F := Ideal) x0 x2 x3 x4 hr (ix2 p j) = gates (params x1 x2 x3 x4) (row x0 p) (row hr p) j := by
  unfold k0_pay3 gates inProj
  exact congrArg₂ (· + ·)
    (Cert.AttnBody.denseT_bias_apply _ rfl none _ _ _ x4 _ _ p j)
    ((Cert.PlainLayers.plainMM_of_eq _ rfl none _ _ p j).trans
      (Finset.sum_congr rfl fun k _ => congrArg (hr (ix2 p k) * ·) (transpose_ix2_apply _ _ k j)))

/-! ## The cell state and the estimate, from any gate array -/

/-- σ(forget) · c + σ(input) · tanh(candidate) on whole arrays, at (p, j). -/
theorem cell_of (G : FVec Ideal S256x1024 .f32) (c : FVec Ideal S256x256 .f32) (p : Fin 256) (j : Fin 256) :
    addf (mulf (logistic (extractStridedSlice S256x256 ![0, 256] G slices_S256x1024_o0_256_S256x256)) c)
        (mulf (logistic (extractStridedSlice S256x256 ![0, 0] G slices_S256x1024_o0_0_S256x256))
          (tanh (extractStridedSlice S256x256 ![0, 512] G slices_S256x1024_o0_512_S256x256))) (ix2 p j)
      = cell (row G p) (row c p) j := by
  unfold cell
  exact congrArg₂ (· + ·)
    (congrArg (fun z => Ideal.logistic z * c (ix2 p j))
      (slice2_axis1_apply 256 G slices_S256x1024_o0_256_S256x256 p j (gF j) rfl))
    (congrArg₂ (fun z w => Ideal.logistic z * Ideal.tanh w)
      (slice2_axis1_apply 0 G slices_S256x1024_o0_0_S256x256 p j (gI j) (Nat.zero_add _).symm)
      (slice2_axis1_apply 512 G slices_S256x1024_o0_512_S256x256 p j (gG j) rfl))

/-- The query plus the first 128 columns of σ(output) · tanh(cell state), at (p, j). -/
theorem estimate_of (G : FVec Ideal S256x1024 .f32) (C : FVec Ideal S256x256 .f32) (p : Fin 256) (j : Fin 128) :
    addf x0 (extractStridedSlice S256x128 ![0, 0]
        (mulf (logistic (extractStridedSlice S256x256 ![0, 768] G slices_S256x1024_o0_768_S256x256)) (tanh C))
        slices_S256x256_o0_0_S256x128) (ix2 p j)
      = estimate (row x0 p) (row G p) (row C p) j := by
  unfold estimate
  refine congrArg (x0 (ix2 p j) + ·) ?_
  refine (slice2_axis1_apply 0 _ slices_S256x256_o0_0_S256x128 p j (lo j) (Nat.zero_add _).symm).trans ?_
  exact congrArg (fun z => Ideal.logistic z * Ideal.tanh (C (ix2 p (lo j))))
    (slice2_axis1_apply 768 G slices_S256x1024_o0_768_S256x256 p (lo j) (gO (lo j)) rfl)

/-- The new cell state at (p, j). -/
theorem cell_apply (hr c : FVec Ideal S256x256 .f32) (p : Fin 256) (j : Fin 256) :
    k0_pay4 (F := Ideal) x0 x2 x3 x4 hr c (ix2 p j) = cell (row (k0_pay3 (F := Ideal) x0 x2 x3 x4 hr) p) (row c p) j := by
  unfold k0_pay4
  exact cell_of _ c p j

/-- The new estimate at (p, j). -/
theorem estimate_apply (hr c : FVec Ideal S256x256 .f32) (p : Fin 256) (j : Fin 128) :
    k0_pay5 (F := Ideal) x0 x2 x3 x4 hr c (ix2 p j)
      = estimate (row x0 p) (row (k0_pay3 (F := Ideal) x0 x2 x3 x4 hr) p) (row (k0_pay4 (F := Ideal) x0 x2 x3 x4 hr c) p) j := by
  unfold k0_pay5
  exact estimate_of x0 _ _ p j

/-! ## Attention over the support set, from any estimate -/

/-- The exponential of an array at an index. -/
theorem exp_at {s : Shape} (a : FVec Ideal s .f32) (i : s.Idx) : exp a i = Ideal.exp (a i) := rfl

/-- The scores: the estimate's rows against the support rows. -/
theorem score_of (H : FVec Ideal S256x128 .f32) (p : Fin 256) (s : Fin 4096) :
    matmul dot_S256x128_S128x4096_S256x4096_1_0_0_1_n_n none (truncf .bf16 H bitsLt_bf16_f32)
        (transpose S128x4096 [1, 0] (truncf .bf16 x1 bitsLt_bf16_f32) transposes_S4096x128_p1_0_S128x4096)
        (constant S256x4096 .f32 0x00000000#32) (ix2 p s)
      = score (params x1 x2 x3 x4) (row H p) s := by
  unfold score
  exact (Cert.PlainLayers.plainMM_of_eq _ rfl none _ _ p s).trans
    (Finset.sum_congr rfl fun k _ => congrArg (H (ix2 p k) * ·) (transpose_ix2_apply _ _ k s))

/-- The largest score of a row, kept as a column and repeated along the row. -/
theorem top_of (S : FVec Ideal S256x4096 .f32) (p : Fin 256) (s : Fin 4096) :
    broadcastTo S256x4096 (shapeCast S256x1
        (maximumf (broadcast S256 (Scalar.ofBits (F := Ideal) .f32 0xFF800000#32))
          (multiReduction .maximumf [1] S256 S 0xFF800000#32 reduces_S256x4096_S256 (.inl rfl) rfl))
        shapeCasts_S256_S256x1) broadcasts_S256x1_S256x4096 (ix2 p s)
      = top (row S p) := by
  unfold top
  refine (Cert.Columns.broadcastTo_a1_ab_apply _ broadcasts_S256x1_S256x4096 p s).trans ?_
  refine (Cert.DenseRows.shapeCast_a_a1_apply _ shapeCasts_S256_S256x1 p 0).trans ?_
  refine (maximumf_apply _ _ (ix1 p)).trans ?_
  exact congrArg₂ max rfl (Cert.SoftmaxRows.rowMax_apply S 0xFF800000#32 reduces_S256x4096_S256 (.inl rfl) rfl p)

/-- The exponentials of a row's scores less the largest. -/
theorem exp_of (S : FVec Ideal S256x4096 .f32) (p : Fin 256) (s : Fin 4096) :
    exp (subf S (broadcastTo S256x4096 (shapeCast S256x1
        (maximumf (broadcast S256 (Scalar.ofBits (F := Ideal) .f32 0xFF800000#32))
          (multiReduction .maximumf [1] S256 S 0xFF800000#32 reduces_S256x4096_S256 (.inl rfl) rfl))
        shapeCasts_S256_S256x1) broadcasts_S256x1_S256x4096)) (ix2 p s)
      = Ideal.exp (S (ix2 p s) - top (row S p)) :=
  (exp_at _ (ix2 p s)).trans (congrArg Ideal.exp ((subf_apply S _ (ix2 p s)).trans (congrArg (S (ix2 p s) - ·) (top_of S p s))))

/-- The attention weights of a row. -/
theorem weight_of (S : FVec Ideal S256x4096 .f32) (p : Fin 256) (s : Fin 4096) :
    divf
      (exp (subf S (broadcastTo S256x4096 (shapeCast S256x1
        (maximumf (broadcast S256 (Scalar.ofBits (F := Ideal) .f32 0xFF800000#32))
          (multiReduction .maximumf [1] S256 S 0xFF800000#32 reduces_S256x4096_S256 (.inl rfl) rfl))
        shapeCasts_S256_S256x1) broadcasts_S256x1_S256x4096)))
      (broadcastTo S256x4096 (shapeCast S256x1
        (multiReduction .add [1] S256
          (exp (subf S (broadcastTo S256x4096 (shapeCast S256x1
            (maximumf (broadcast S256 (Scalar.ofBits (F := Ideal) .f32 0xFF800000#32))
              (multiReduction .maximumf [1] S256 S 0xFF800000#32 reduces_S256x4096_S256 (.inl rfl) rfl))
            shapeCasts_S256_S256x1) broadcasts_S256x1_S256x4096)))
          0x00000000#32 reduces_S256x4096_S256 (.inl rfl) rfl)
        shapeCasts_S256_S256x1) broadcasts_S256x1_S256x4096) (ix2 p s)
      = weight (row S p) s := by
  unfold weight
  refine (divf_apply _ _ (ix2 p s)).trans ?_
  refine congrArg₂ Ideal.div (exp_of S p s) ?_
  refine ((Cert.Columns.broadcastTo_a1_ab_apply _ broadcasts_S256x1_S256x4096 p s).trans
    (Cert.Columns.keepdimsSum_apply _ _ reduces_S256x4096_S256 (.inl rfl) rfl shapeCasts_S256_S256x1 p 0)).trans ?_
  exact Finset.sum_congr rfl fun k _ => exp_of S p k

/-- The read-out: a weight array times the support set. -/
theorem readout_of (W : FVec Ideal S256x4096 .f32) (p : Fin 256) (j : Fin 128) :
    matmul dot_S256x4096_S4096x128_S256x128_1_0_0_1_n_n none (truncf .bf16 W bitsLt_bf16_f32)
        (truncf .bf16 x1 bitsLt_bf16_f32) (constant S256x128 .f32 0x00000000#32) (ix2 p j)
      = ∑ s : Fin 4096, W (ix2 p s) * x1 (ix2 s j) :=
  Cert.PlainLayers.plainMM_of_eq _ rfl none _ _ p j

/-- Two [256, 128] arrays set side by side, at (p, k). -/
theorem join_of (H R : FVec Ideal S256x128 .f32) (p : Fin 256) (k : Fin 256) :
    concatenate S256x256 1 [⟨S256x128, H⟩, ⟨S256x128, R⟩] concatenates_S256x128_S256x128_S256x256_d1 (ix2 p k)
      = join (row H p) (row R p) k := by
  unfold join
  split
  · next hk =>
    refine concatenate_pair_apply_left 1 H R concatenates_S256x128_S256x128_S256x256_d1 (ix2 p k) rfl (ix2 p ⟨k.val, hk⟩) fun bx => ?_
    match bx with
    | ⟨0, _⟩ => rfl
    | ⟨1, _⟩ => rfl
  · next hk =>
    refine concatenate_pair_apply_right 1 H R concatenates_S256x128_S256x128_S256x256_d1 (ix2 p k) rfl rfl
      (ix2 p ⟨k.val - 128, by have := k.isLt; omega⟩) (fun bx hne => ?_) ?_
    · match bx with
      | ⟨0, _⟩ => rfl
      | ⟨1, _⟩ => exact absurd rfl hne
    · show k.val - 128 + 128 = k.val
      omega

/-- The new hidden pair at (p, k): the new estimate followed by its attention read-out. -/
theorem carry_apply (hr c : FVec Ideal S256x256 .f32) (p : Fin 256) (k : Fin 256) :
    k0_pay6 (F := Ideal) x0 x1 x2 x3 x4 hr c (ix2 p k)
      = join (row (k0_pay5 (F := Ideal) x0 x2 x3 x4 hr c) p)
          (readout (params x1 x2 x3 x4) (score (params x1 x2 x3 x4) (row (k0_pay5 (F := Ideal) x0 x2 x3 x4 hr c) p))) k := by
  unfold k0_pay6
  refine (join_of _ _ p k).trans ?_
  refine congrArg (fun r => join (row (k0_pay5 (F := Ideal) x0 x2 x3 x4 hr c) p) r k) (funext fun j => ?_)
  unfold readout
  refine (readout_of x1 _ p j).trans (Finset.sum_congr rfl fun s _ => congrArg (· * x1 (ix2 s j)) ?_)
  refine (weight_of _ p s).trans ?_
  exact congrArg (fun sc => weight sc s) (funext fun s' => score_of x1 x2 x3 x4 _ p s')

/-! ## One trip on one row -/

/-- One trip of the loop, read at row p: the specification's step on that row. -/
theorem step_row (hr c : FVec Ideal S256x256 .f32) (h : Vec Ideal S256x128 .f32) (p : Fin 256) :
    (row (k0_pay6 (F := Ideal) x0 x1 x2 x3 x4 hr c) p, row (k0_pay4 (F := Ideal) x0 x2 x3 x4 hr c) p,
        row (k0_pay5 (F := Ideal) x0 x2 x3 x4 hr c) p)
      = step (params x1 x2 x3 x4) (row x0 p) (row hr p, row c p, row h p) := by
  have hg : row (k0_pay3 (F := Ideal) x0 x2 x3 x4 hr) p = gates (params x1 x2 x3 x4) (row x0 p) (row hr p) :=
    funext fun j => gates_apply x0 x1 x2 x3 x4 hr p j
  have hc : row (k0_pay4 (F := Ideal) x0 x2 x3 x4 hr c) p = cell (gates (params x1 x2 x3 x4) (row x0 p) (row hr p)) (row c p) :=
    (funext fun j => cell_apply x0 x2 x3 x4 hr c p j).trans (congrArg (fun g => cell g (row c p)) hg)
  have hh : row (k0_pay5 (F := Ideal) x0 x2 x3 x4 hr c) p
      = estimate (row x0 p) (gates (params x1 x2 x3 x4) (row x0 p) (row hr p))
          (cell (gates (params x1 x2 x3 x4) (row x0 p) (row hr p)) (row c p)) :=
    (funext fun j => estimate_apply x0 x2 x3 x4 hr c p j).trans (congrArg₂ (fun g c' => estimate (row x0 p) g c') hg hc)
  have hj : row (k0_pay6 (F := Ideal) x0 x1 x2 x3 x4 hr c) p
      = join (estimate (row x0 p) (gates (params x1 x2 x3 x4) (row x0 p) (row hr p))
            (cell (gates (params x1 x2 x3 x4) (row x0 p) (row hr p)) (row c p)))
          (readout (params x1 x2 x3 x4) (score (params x1 x2 x3 x4)
            (estimate (row x0 p) (gates (params x1 x2 x3 x4) (row x0 p) (row hr p))
              (cell (gates (params x1 x2 x3 x4) (row x0 p) (row hr p)) (row c p))))) :=
    (funext fun k => carry_apply x0 x1 x2 x3 x4 hr c p k).trans
      (congrArg (fun h => join h (readout (params x1 x2 x3 x4) (score (params x1 x2 x3 x4) h))) hh)
  exact Prod.ext hj (Prod.ext hc hh)

end Cert.KernelRows

end
-- ==== Proof.LibLoopSteps.lean ====
/-
  General lemma for kernel bodies with an effect-free counted loop whose trips all apply one function.

  Such a loop computes the fold of its trip over the trip numbers. When the trip does not read its number, and some
  reading π of the carried values (a row of each carried array, say) turns one trip into one step f of a recurrence on
  what is read, then n trips read through π are n steps: π (fold) = f^[n] (π start).

  * `foldl_read`: the same for any list of trip numbers, by induction on the list.
  * `fold_read`: the loop's fold over n trips.
-/
import Idealize.ShloMosaic.Lib.Exec

namespace Cert.LoopSteps

open Idealize.ShloMosaic

variable {σ ρ : Type} {n : ℕ}

/-- Any list of trips of one function g, read through π under which g is the step f: as many steps as the list is long. -/
theorem foldl_read (g : σ → σ) (π : σ → ρ) (f : ρ → ρ) (h : ∀ a, π (g a) = f (π a)) (ks : List (Fin n)) (a : σ) :
    π (ks.foldl (fun acc _ => g acc) a) = f^[ks.length] (π a) := by
  induction ks generalizing a with
  | nil => rfl
  | cons k ks ih => rw [List.foldl_cons, ih, h, List.length_cons, Function.iterate_succ_apply]

/-- The fold of g over n trips, read through π, is n steps of f. -/
theorem fold_read (g : σ → σ) (π : σ → ρ) (f : ρ → ρ) (h : ∀ a, π (g a) = f (π a)) (a : σ) :
    π (Scf.fold (n := n) (fun _ acc => g acc) a) = f^[n] (π a) := by
  rw [Scf.fold_eq, foldl_read g π f h, List.length_finRange]

end Cert.LoopSteps
-- ==== Proof.KernelFold.lean ====
/-
  The body's loop as four steps on every row.

  The loop carries three arrays (hidden pairs, cell states, estimates) through its trips and issues no memory operation,
  so what it computes is the fold of one trip's function over the trips. Read at row p of the block, one trip is the
  specification's step on that row, so the fold over n trips is n steps; the loop has four trips and starts from zero
  hidden pairs, zero cell states and the queries themselves.
-/
import proofs.«114670_j86131274154741_1_alg».proof.Proof.KernelRows
import proofs.«114670_j86131274154741_1_alg».proof.Proof.LibLoopSteps
import Idealize.ShloMosaic.Lib.Exec

noncomputable section

namespace Cert.KernelFold

open Cert.KernelIdeal Cert.KernelIdeal.Gen Cert.RowSpec Cert.KernelRows Idealize.ShloMosaic Idealize.ShloMosaic.ValueIdx

/-- What the loop carries. -/
abbrev Carry : Type := FVec Ideal S256x256 .f32 × FVec Ideal S256x256 .f32 × Vec Ideal S256x128 .f32

variable (x0 : Vec Ideal S256x128 .f32) (x1 : Vec Ideal S4096x128 .f32) (x2 : Vec Ideal S1024x128 .f32)
  (x3 : Vec Ideal S1024x256 .f32) (x4 : Vec Ideal S1x1024 .f32)

/-- One trip, as a function of what is carried: new hidden pairs, new cell states, new estimates. -/
def trip (a : Carry) : Carry :=
  (k0_pay6 (F := Ideal) x0 x1 x2 x3 x4 a.1 a.2.1, k0_pay4 (F := Ideal) x0 x2 x3 x4 a.1 a.2.1,
    k0_pay5 (F := Ideal) x0 x2 x3 x4 a.1 a.2.1)

/-- Row p of the three carried arrays. -/
abbrev rowsOf (a : Carry) (p : Fin 256) : State := (row a.1 p, row a.2.1 p, row a.2.2 p)

/-- One trip read at row p is one step on that row. -/
theorem trip_rows (a : Carry) (p : Fin 256) :
    rowsOf (trip x0 x1 x2 x3 x4 a) p = step (params x1 x2 x3 x4) (row x0 p) (rowsOf a p) :=
  step_row x0 x1 x2 x3 x4 a.1 a.2.1 a.2.2 p

/-- The fold over n trips read at row p is n steps. -/
theorem fold_rows {n : ℕ} (a : Carry) (p : Fin 256) :
    rowsOf (Scf.fold (n := n) (fun _ acc => trip x0 x1 x2 x3 x4 acc) a) p
      = (step (params x1 x2 x3 x4) (row x0 p))^[n] (rowsOf a p) :=
  Cert.LoopSteps.fold_read (trip x0 x1 x2 x3 x4) (fun a => rowsOf a p) (step (params x1 x2 x3 x4) (row x0 p))
    (fun a => trip_rows x0 x1 x2 x3 x4 a p) a

/-- The loop takes four trips. -/
theorem trips_eq : k0_t1_loop.trips = 4 := by decide

/-- Where the loop starts, read at row p: zero hidden pair, zero cell state, the query row. -/
theorem start_rows (p : Fin 256) : rowsOf (k0_pay1 (F := Ideal), k0_pay2 (F := Ideal), x0) p = start (row x0 p) :=
  Prod.ext (funext fun _ => rfl) (Prod.ext (funext fun _ => rfl) rfl)

/-- What the loop leaves as estimates, at row p: the specification's result on that row. -/
theorem loop_row (p : Fin 256) :
    row (Scf.fold (n := k0_t1_loop.trips) (fun _ acc => trip x0 x1 x2 x3 x4 acc)
      (k0_pay1 (F := Ideal), k0_pay2 (F := Ideal), x0)).2.2 p = result (params x1 x2 x3 x4) (row x0 p) := by
  have h := congrArg (fun s : State => s.2.2) (fold_rows x0 x1 x2 x3 x4 (n := k0_t1_loop.trips)
    (k0_pay1 (F := Ideal), k0_pay2 (F := Ideal), x0) p)
  refine h.trans ?_
  unfold result
  rw [trips_eq, start_rows]

end Cert.KernelFold

end
-- ==== Proof.KernelValue.lean ====
/-
  The kernel's result array as the specification's result on every query row.

  Grid point t stages rows 256·t … 256·t + 255 of the queries as its block and the support set, the two weight matrices
  and the bias row whole; its body leaves, in the output's staging buffer, the estimates the loop ends with, which at row
  p are the specification's result on query row 256·t + p. That block is written back to rows 256·t … 256·t + 255 of
  the result array, the 64 blocks tile its 16384 rows, so the array ends holding the specification's result on every
  row. The bias row the body reads is the sum of the two bias vectors, laid as one row before the launch.
-/
import proofs.«114670_j86131274154741_1_alg».proof.Proof.Gen.KernelIdeal.Value
import proofs.«114670_j86131274154741_1_alg».proof.Proof.KernelFold
import Idealize.ShloMosaic.Lib.Pipeline.Value
import Idealize.ShloMosaic.Lib.StableHlo.Run
import Idealize.ShloMosaic.Lib.Tactic
import Idealize.ShloMosaic.Lib.ValueLayout

noncomputable section

namespace Cert.KernelValue

open Cert.KernelIdeal Cert.KernelIdeal.Gen Cert.KernelIdeal.Value Cert.RowSpec Cert.KernelRows Cert.KernelFold
open Idealize.ShloMosaic Idealize.ShloMosaic.TcCoe Idealize.ShloMosaic.Tactic Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The six argument arrays as launched, at their array types. -/
abbrev K0 (c : Dev nD) : FVec Ideal S4096x128 .f32 := m ((c : Thread nD τ).loc main_arg0)
abbrev K1 (c : Dev nD) : FVec Ideal S16384x128 .f32 := m ((c : Thread nD τ).loc main_arg1)
abbrev K2 (c : Dev nD) : FVec Ideal S1024x128 .f32 := m ((c : Thread nD τ).loc main_arg2)
abbrev K3 (c : Dev nD) : FVec Ideal S1024x256 .f32 := m ((c : Thread nD τ).loc main_arg3)
abbrev K4 (c : Dev nD) : FVec Ideal S1024 .f32 := m ((c : Thread nD τ).loc main_arg4)
abbrev K5 (c : Dev nD) : FVec Ideal S1024 .f32 := m ((c : Thread nD τ).loc main_arg5)

/-! ## What the body leaves in the output's staging buffer -/

/-- The body's one store writes the estimates the loop ends with: the third component of the fold of one trip over
    the loop's trips, from zero hidden pairs, zero cell states and the query block. -/
theorem out_eq (c : Dev nD) (i : grid0.Coords)
    (a1 : Memref sig .tc .vmem S256x128 .f32) (h1 : a1.IsWhole) (a2 : Memref sig .tc .vmem S4096x128 .f32) (h2 : a2.IsWhole)
    (a3 : Memref sig .tc .vmem S1024x128 .f32) (h3 : a3.IsWhole) (a4 : Memref sig .tc .vmem S1024x256 .f32) (h4 : a4.IsWhole)
    (a5 : Memref sig .tc .vmem S1x1024 .f32) (h5 : a5.IsWhole) (a6 : Memref sig .tc .vmem S256x128 .f32) (h6 : a6.IsWhole)
    (x0 : Vec Ideal S256x128 .f32) (x1 : Vec Ideal S4096x128 .f32) (x2 : Vec Ideal S1024x128 .f32)
    (x3 : Vec Ideal S1024x256 .f32) (x4 : Vec Ideal S1x1024 .f32) :
    out0_A_5 (F := Ideal) c i a1 h1 a2 h2 a3 h3 a4 h4 a5 h5 a6 h6 x0 x1 x2 x3 x4
      = (Scf.fold (n := k0_t1_loop.trips) (fun _ acc => trip x0 x1 x2 x3 x4 acc)
          (k0_pay1 (F := Ideal), k0_pay2 (F := Ideal), x0)).2.2 := by
  unfold out0_A_5
  rw [View.read_writes_eq_canon _ _ _ (cover0_A_5 c i a1 h1 a2 h2 a3 h3 a4 h4 a5 h5 a6 h6 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x128) hz, View.ld_unit_zero (S := S4096x128) hz, View.ld_unit_zero (S := S1024x128) hz,
    View.ld_unit_zero (S := S1024x256) hz, View.ld_unit_zero (S := S1x1024) hz]
  rfl

/-! ## The blocks, read off the arrays -/

/-- The printed index maps over the grid: the query and result blocks move with the point, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The query block at point t is rows 256·t … of the queries. -/
theorem blk0_apply (c : Dev nD) (t : Fin cfg0.N) (p : Fin 256) (k : Fin 128) (r : Fin 16384) (hr : r.val = 256 * t.val + p.val) :
    (iblk m c 0 t : Vec Ideal S256x128 .f32) (ix2 p k) = (V m c main_arg1 : S16384x128.Idx → Elt Ideal .f32) (ix2 r k) := by
  obtain ⟨e0, e1, -⟩ := idx_facts t
  unfold iblk
  rw [View.read_apply]
  show (V m c main_arg1 : S16384x128.Idx → Elt Ideal .f32) _ = _
  refine congrArg (V m c main_arg1 : S16384x128.Idx → Elt Ideal .f32) (funext fun a => Fin.ext ?_)
  match a with
  | ⟨0, _⟩ => show win0_0.index t 0 * 256 + 1 * p.val = r.val; rw [e0, hr]; omega
  | ⟨1, _⟩ => show win0_0.index t 1 * 128 + 1 * k.val = k.val; rw [e1]; omega

/-- The support block is the whole support set. -/
theorem blk1_apply (c : Dev nD) (t : Fin cfg0.N) (x : S4096x128.Idx) :
    (iblk m c 1 t : Vec Ideal S4096x128 .f32) x = (V m c main_arg0 : S4096x128.Idx → Elt Ideal .f32) x := by
  obtain ⟨-, -, e0, e1, -⟩ := idx_facts t
  unfold iblk
  rw [View.read_apply]
  show (V m c main_arg0 : S4096x128.Idx → Elt Ideal .f32) _ = _
  refine congrArg (V m c main_arg0 : S4096x128.Idx → Elt Ideal .f32) (funext fun a => Fin.ext ?_)
  match a with
  | ⟨0, _⟩ => show win0_1.index t 0 * 4096 + 1 * (x 0).val = (x 0).val; rw [e0]; omega
  | ⟨1, _⟩ => show win0_1.index t 1 * 128 + 1 * (x 1).val = (x 1).val; rw [e1]; omega

/-- The first weight block is the whole matrix. -/
theorem blk2_apply (c : Dev nD) (t : Fin cfg0.N) (x : S1024x128.Idx) :
    (iblk m c 2 t : Vec Ideal S1024x128 .f32) x = (V m c main_arg2 : S1024x128.Idx → Elt Ideal .f32) x := by
  obtain ⟨-, -, -, -, e0, e1, -⟩ := idx_facts t
  unfold iblk
  rw [View.read_apply]
  show (V m c main_arg2 : S1024x128.Idx → Elt Ideal .f32) _ = _
  refine congrArg (V m c main_arg2 : S1024x128.Idx → Elt Ideal .f32) (funext fun a => Fin.ext ?_)
  match a with
  | ⟨0, _⟩ => show win0_2.index t 0 * 1024 + 1 * (x 0).val = (x 0).val; rw [e0]; omega
  | ⟨1, _⟩ => show win0_2.index t 1 * 128 + 1 * (x 1).val = (x 1).val; rw [e1]; omega

/-- The second weight block is the whole matrix. -/
theorem blk3_apply (c : Dev nD) (t : Fin cfg0.N) (x : S1024x256.Idx) :
    (iblk m c 3 t : Vec Ideal S1024x256 .f32) x = (V m c main_arg3 : S1024x256.Idx → Elt Ideal .f32) x := by
  obtain ⟨-, -, -, -, -, -, e0, e1, -⟩ := idx_facts t
  unfold iblk
  rw [View.read_apply]
  show (V m c main_arg3 : S1024x256.Idx → Elt Ideal .f32) _ = _
  refine congrArg (V m c main_arg3 : S1024x256.Idx → Elt Ideal .f32) (funext fun a => Fin.ext ?_)
  match a with
  | ⟨0, _⟩ => show win0_3.index t 0 * 1024 + 1 * (x 0).val = (x 0).val; rw [e0]; omega
  | ⟨1, _⟩ => show win0_3.index t 1 * 256 + 1 * (x 1).val = (x 1).val; rw [e1]; omega

/-- The bias block is the whole bias row. -/
theorem blk4_apply (c : Dev nD) (t : Fin cfg0.N) (x : S1x1024.Idx) :
    (iblk m c 4 t : Vec Ideal S1x1024 .f32) x = (V m c main_v1 : S1x1024.Idx → Elt Ideal .f32) x := by
  obtain ⟨-, -, -, -, -, -, -, -, e0, e1, -⟩ := idx_facts t
  unfold iblk
  rw [View.read_apply]
  show (V m c main_v1 : S1x1024.Idx → Elt Ideal .f32) _ = _
  refine congrArg (V m c main_v1 : S1x1024.Idx → Elt Ideal .f32) (funext fun a => Fin.ext ?_)
  match a with
  | ⟨0, _⟩ => show win0_4.index t 0 * 1 + 1 * (x 0).val = (x 0).val; rw [e0]; omega
  | ⟨1, _⟩ => show win0_4.index t 1 * 1024 + 1 * (x 1).val = (x 1).val; rw [e1]; omega

/-- The bias row the region finds: the sum of the two bias vectors, laid as one row. -/
theorem bias_row (c : Dev nD) :
    (V m c main_v1 : FVec Ideal S1x1024 .f32)
      = shapeCast S1x1024 (addf (K4 m c) (K5 m c)) shapeCasts_S1024_S1x1024 := by
  dsimp only [Gen.V, Gen.hostOps0]
  after_results
  rfl

/-! ## The result array -/

/-- The specification's result over the arrays as the region finds them. -/
def G (c : Dev nD) : S16384x128.Idx → Elt Ideal .f32 :=
  resultArray (V m c main_arg0 : S4096x128.Idx → Elt Ideal .f32) (V m c main_arg1 : S16384x128.Idx → Elt Ideal .f32)
    (V m c main_arg2 : S1024x128.Idx → Elt Ideal .f32) (V m c main_arg3 : S1024x256.Idx → Elt Ideal .f32)
    (K4 m c) (K5 m c)

/-- The parameters a point's body finds in its blocks are the arrays' own. -/
theorem params_blk (c : Dev nD) (t : Fin cfg0.N) :
    params (iblk m c 1 t) (iblk m c 2 t) (iblk m c 3 t) (iblk m c 4 t)
      = ⟨fun s k => (V m c main_arg0 : S4096x128.Idx → Elt Ideal .f32) (ix2 s k),
          fun j k => (V m c main_arg2 : S1024x128.Idx → Elt Ideal .f32) (ix2 j k),
          fun j k => (V m c main_arg3 : S1024x256.Idx → Elt Ideal .f32) (ix2 j k),
          fun j => K4 m c (ix1 j) + K5 m c (ix1 j)⟩ :=
  Params.ext (funext fun s => funext fun k => blk1_apply m c t (ix2 s k))
    (funext fun j => funext fun k => blk2_apply m c t (ix2 j k))
    (funext fun j => funext fun k => blk3_apply m c t (ix2 j k))
    (funext fun j => (blk4_apply m c t (ix2 (0 : Fin 1) j)).trans
      ((congrFun (bias_row m c) (ix2 (0 : Fin 1) j)).trans (shapeCast_a_1a_apply _ shapeCasts_S1024_S1x1024 0 j)))

/-- WHAT POINT t WRITES BACK is block t of the specification's result. -/
theorem flushed_eq (c : Dev nD) (t : Fin cfg0.N) :
    (dats m 0 c).flushed 5 t = ((cfg0.win 5).blk t).view.read (Elt Ideal) (G m c) := by
  rw [flushed5_A m c t, out_eq]
  funext y
  obtain ⟨p, q, rfl⟩ : ∃ (p : Fin 256) (q : Fin 128), y = ix2 p q := ⟨y 0, y 1, eq_ix2 y⟩
  have ht : t.val < 64 := lt_of_lt_of_eq t.isLt N_0
  obtain ⟨-, -, -, -, -, -, -, -, -, -, e0, e1⟩ := idx_facts t
  have hemb : ((cfg0.win 5).blk t).view.emb (ix2 p q) = ix2 (⟨256 * t.val + p.val, by have := p.isLt; omega⟩ : Fin 16384) q :=
    funext fun a => Fin.ext (by
      match a with
      | ⟨0, _⟩ => show win0_5.index t 0 * 256 + 1 * p.val = 256 * t.val + p.val; rw [e0]; omega
      | ⟨1, _⟩ => show win0_5.index t 1 * 128 + 1 * q.val = q.val; rw [e1]; omega)
  show (Scf.fold (n := k0_t1_loop.trips) (fun _ acc => trip (iblk m c 0 t) (iblk m c 1 t) (iblk m c 2 t) (iblk m c 3 t) (iblk m c 4 t) acc)
      (k0_pay1 (F := Ideal), k0_pay2 (F := Ideal), iblk m c 0 t)).2.2 (ix2 p q) = G m c (((cfg0.win 5).blk t).view.emb (ix2 p q))
  rw [hemb]
  refine (congrFun (loop_row (iblk m c 0 t) (iblk m c 1 t) (iblk m c 2 t) (iblk m c 3 t) (iblk m c 4 t) p) q).trans ?_
  rw [params_blk m c t]
  exact congrArg (fun r => result _ r q) (funext fun k => blk0_apply m c t p k _ rfl)

/-- An index of the result array is in point t's block iff each coordinate is in the block's range on its axis. -/
theorem mem_blk (t : Fin cfg0.N) (i : S16384x128.Idx) :
    i ∈ ((cfg0.win 5).blk t).view.set ↔ ∀ a : Fin 2, win0_5.index t a * S256x128.size a ≤ (i a).val ∧ (i a).val < win0_5.index t a * S256x128.size a + S256x128.size a := by
  show i ∈ ((View.whole main_v2).slice (win0_5.rect t)).set ↔ _
  rw [View.set_slice_whole, Rect.mem_set_unit]
  exact Iff.rfl

/-- Every row of the result array is in some point's block: row r in point r / 256's. -/
theorem cover (i : S16384x128.Idx) : ∃ t : Fin cfg0.N, (cfg0.win 5).flush t = true ∧ i ∈ ((cfg0.win 5).blk t).view.set := by
  have hi0 : (i 0).val < 16384 := (i 0).isLt
  have hi1 : (i 1).val < 128 := (i 1).isLt
  have hN : cfg0.N = 64 := N_0
  have hlt : (i 0).val / 256 < cfg0.N := by rw [hN]; omega
  obtain ⟨-, -, -, -, -, -, -, -, -, -, e0, e1⟩ := idx_facts ⟨(i 0).val / 256, hlt⟩
  refine ⟨⟨(i 0).val / 256, hlt⟩, flush0_5 _, (mem_blk _ i).mpr fun a => ?_⟩
  match a with
  | ⟨0, _⟩ =>
    show win0_5.index ⟨(i 0).val / 256, hlt⟩ 0 * 256 ≤ (i 0).val ∧ (i 0).val < win0_5.index ⟨(i 0).val / 256, hlt⟩ 0 * 256 + 256
    rw [e0]
    show (i 0).val / 256 * 256 ≤ (i 0).val ∧ (i 0).val < (i 0).val / 256 * 256 + 256
    omega
  | ⟨1, _⟩ =>
    show win0_5.index ⟨(i 0).val / 256, hlt⟩ 1 * 128 ≤ (i 1).val ∧ (i 1).val < win0_5.index ⟨(i 0).val / 256, hlt⟩ 1 * 128 + 128
    rw [e1]
    omega

/-- THE ARRAY after the run: the specification's result of the argument arrays as launched. -/
theorem final (c : Dev nD) : (dats m 0 c).arrAt 5 cfg0.N
    = resultArray (K0 m c) (K1 m c) (K2 m c) (K3 m c) (K4 m c) (K5 m c) := by
  refine ((dats m 0 c).arrAt_eq_of_cover 5 (G m c) (fun t _ => flushed_eq m c t) cover).trans ?_
  unfold G
  rw [V_main_arg0, V_main_arg1, V_main_arg2, V_main_arg3]

/-- The run, read: the result array at the specification's result, the arguments unchanged. -/
theorem run : θ_run defs (onTc (τ := τ) (main (F := Ideal))) ⟨m, fun _ => 0, ρ⟩ fun r => ∀ c : Dev nD,
      r.2.mem ((c : Thread nD τ).loc main_v2)
        = resultArray (K0 m c) (K1 m c) (K2 m c) (K3 m c) (K4 m c) (K5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelValue

end
-- ==== Proof.LibGraphConv.lean ====
/-
  General lemmas for graph-convolution layers, read at the exact (extended-real) instance, one entry at a time.
  A layer's value at node p, feature j is  max (agg (p, j) + d p · h (p, j) + b j) 0 : the neighbours' weighted sum,
  plus the node's own row weighted by its self-loop coefficient, plus the bias, cut at zero.

  * `hostMM_apply`: the host's product of an [M, K] by a [K, N] array, at (p, j), is the plain sum over k.
  * `hostCol_apply`: an [a, 1] column laid along the rows by the host reads, at (p, j), the column at p.
  * `hostDense_apply`: the host's product plus a [1, N] bias row laid down the rows.
  * `hostConv_apply`: the layer as a host program spells it (host broadcasts, maximum with the zero scalar broadcast).
  * `bodyConv_apply`: the layer as a kernel body spells it (identity recasts, vector broadcasts, maximum with a zero splat).
  Both spellings read the same number, so a kernel tile and the host's whole array agree entry by entry.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«114670_j86131274154741_1_alg».proof.Proof.LibPlainLayers

noncomputable section

open scoped BigOperators

namespace Cert.GraphConv

open Idealize.ShloMosaic Idealize.ShloMosaic.ValueIdx

variable {M K N : ℕ}

/-- The host's product of an [M, K] array with a [K, N] array at (p, j): the sum over k of left (p, k) times right (k, j). -/
theorem hostMM_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂) (p : Fin M) (j : Fin N) :
    Host.dotGeneral D prec x w (ix2 p j) = ∑ k : Fin K, x (ix2 p k) * w (ix2 k j) := by
  rw [← matmul_zero_eq_dotGeneral]
  exact Cert.PlainLayers.plainMM_of_eq D hD prec x w p j

/-- An [a, 1] column laid along the rows of an [a, b] array by the host reads, at (p, j), the column's entry of row p. -/
theorem hostCol_apply {α : Type} {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) := by
  refine broadcastInDim_apply ![0, 1] h v (ix2 p j) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else j.val
    rw [if_pos rfl]

/-- The host's product plus a [1, N] bias row laid down the rows, at (p, j). -/
theorem hostDense_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hb : (⟨2, ![1, N]⟩ : Shape).BroadcastsInDim ⟨2, ![M, N]⟩ ![0, 1]) (p : Fin M) (j : Fin N) :
    addf (Host.dotGeneral D prec x w) (broadcastInDim ⟨2, ![M, N]⟩ ![0, 1] hb b) (ix2 p j)
      = (∑ k : Fin K, x (ix2 p k) * w (ix2 k j)) + b (ix2 (0 : Fin 1) j) :=
  congrArg₂ (· + ·) (hostMM_apply D hD prec x w p j) (broadcastInDim_oneRow_apply hb b p j)

/-- The layer as a host program spells it, at (p, j). -/
theorem hostConv_apply {a b : ℕ} {s0 : Shape} (hd : (⟨2, ![a, 1]⟩ : Shape).BroadcastsInDim ⟨2, ![a, b]⟩ ![0, 1])
    (hb : (⟨2, ![1, b]⟩ : Shape).BroadcastsInDim ⟨2, ![a, b]⟩ ![0, 1])
    (dz : Fin s0.rank → Fin (⟨2, ![a, b]⟩ : Shape).rank) (hz : s0.BroadcastsInDim ⟨2, ![a, b]⟩ dz)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf agg (mulf (broadcastInDim ⟨2, ![a, b]⟩ ![0, 1] hd d) h)) (broadcastInDim ⟨2, ![a, b]⟩ ![0, 1] hb bias))
        (broadcastInDim ⟨2, ![a, b]⟩ dz hz (constant s0 .f32 0x00000000#32)) (ix2 p j)
      = max ((agg (ix2 p j) + d (ix2 p (0 : Fin 1)) * h (ix2 p j)) + bias (ix2 (0 : Fin 1) j)) 0 :=
  congrArg₂ max
    (congrArg₂ (· + ·) (congrArg (agg (ix2 p j) + ·) (congrArg (· * h (ix2 p j)) (hostCol_apply hd d p j)))
      (broadcastInDim_oneRow_apply hb bias p j))
    Ideal.ofBits_zero_f32

/-- The layer as a kernel body spells it on one tile, at (p, j): the recasts are of a shape to itself. -/
theorem bodyConv_apply {a b : ℕ} (ca : (⟨2, ![a, b]⟩ : Shape).ShapeCasts ⟨2, ![a, b]⟩)
    (cd : (⟨2, ![a, 1]⟩ : Shape).ShapeCasts ⟨2, ![a, 1]⟩) (cb : (⟨2, ![1, b]⟩ : Shape).ShapeCasts ⟨2, ![1, b]⟩)
    (hd : (⟨2, ![a, 1]⟩ : Shape).Broadcasts ⟨2, ![a, b]⟩) (hb : (⟨2, ![1, b]⟩ : Shape).Broadcasts ⟨2, ![a, b]⟩)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf (shapeCast ⟨2, ![a, b]⟩ agg ca)
          (mulf (broadcastTo ⟨2, ![a, b]⟩ (shapeCast ⟨2, ![a, 1]⟩ d cd) hd) (shapeCast ⟨2, ![a, b]⟩ h ca)))
        (broadcastTo ⟨2, ![a, b]⟩ (shapeCast ⟨2, ![1, b]⟩ bias cb) hb))
        (broadcast ⟨2, ![a, b]⟩ (Scalar.ofBits (F := Ideal) .f32 0x00000000#32)) (ix2 p j)
      = max ((agg (ix2 p j) + d (ix2 p (0 : Fin 1)) * h (ix2 p j)) + bias (ix2 (0 : Fin 1) j)) 0 :=
  congrArg₂ max
    (congrArg₂ (· + ·)
      (congrArg₂ (· + ·) (congrFun (shapeCast_self agg ca) _)
        (congrArg₂ (· * ·) ((Cert.Columns.broadcastTo_a1_ab_apply _ hd p j).trans (congrFun (shapeCast_self d cd) _))
          (congrFun (shapeCast_self h ca) _)))
      ((broadcastTo_1b_ab_apply _ hb p j).trans (congrFun (shapeCast_self bias cb) _)))
    Ideal.ofBits_zero_f32

end Cert.GraphConv

end
-- ==== Proof.LibLogistic.lean ====
/-
  General lemmas about the logistic function on the extended reals, for programs that spell it out.

  * `one_word`: the single-precision word 0x3F800000 (the literal 1.0) denotes the real 1.
  * `logistic_spelt`: the quotient 1 / (1 + e^(−r)), with both ones given by that word, the quotient the extended reals'
    total one and the exponential the exact one, is the logistic function of r — for every extended real r, the two
    infinities included, since the logistic function is defined there as exactly this quotient.
-/
import Idealize.ShloMosaic.PureOps.Ideal

noncomputable section

namespace Cert.Logistic

open Idealize.ShloMosaic

/-- The single-precision word of 1.0 denotes the real 1. -/
theorem one_word : Ideal.ofBits .f32 0x3F800000#32 = 1 := by
  simp [Ideal.ofBits, Ideal.ieee, -EReal.coe_mul]; norm_num

/-- 1 / (1 + e^(−r)) with both ones given by their word is the logistic function of r. -/
theorem logistic_spelt (r : EReal) :
    Ideal.div (Ideal.ofBits .f32 0x3F800000#32) (Ideal.ofBits .f32 0x3F800000#32 + Ideal.exp (-r)) = Ideal.logistic r := by
  rw [one_word]; rfl

end Cert.Logistic

end
-- ==== Proof.LibGruLayers.lean ====
/-
  General lemmas for gated recurrent (GRU) cells applied to every row of an array, read at the exact (extended-real)
  instance one entry at a time, in the two spellings a program gives them.

  The arithmetic of one cell, on extended reals (no array in sight):
  * lin W b v j = ∑ₖ v k · W j k + b j, an affine map applied to one row;
  * gate gi gh h c = (1 − σ(gi z + gh z)) · tanh (gi n + σ(gi r + gh r) · gh n) + σ(gi z + gh z) · h, where the six
    entries of the two gate vectors are laid out as reset (c), update (2 + c), candidate (4 + c), σ is the logistic
    function and 1 is the single-precision word of 1.0;
  * cell Wi Wh bi bh x h c = gate (lin Wi bi x) (lin Wh bh h) (h c) c.

  The arrays:
  * denseK_apply / denseH_apply: rows times the transpose of an [N, K] weight array plus a bias, as a kernel body spells
    it (transpose, product into a zero accumulator, a [1, N] bias row repeated down the rows) and as a host program spells
    it (transpose, product, an [N] bias laid as a row and down the rows): at (p, j) it is lin of row p.
  * gateK_apply / gateH_apply: the gate arithmetic on whole [M, 6] gate arrays, the kernel body's with the logistic
    function as one operation, the host's with it spelt 1 / (1 + e^(−x)): at (p, c) it is gate of row p's entries.
  * cellK_apply / cellH_apply: the two together.
  * cell_congr, lin_congr: a cell and an affine map depend on their rows only through the rows' entries.
  * pair_cols_apply, cols42_apply: two arrays set side by side along the last axis, read at an entry.
  * col_of_band_apply: a column cut out of a band of columns of an array.
  * band_mid_apply, stack_apply, cut_last_apply: the host's route to the same pair of entries — two bands given a unit
    middle axis, stacked along it, one position of the last axis cut out and the unit axis dropped.
  * seven_cols_apply: seven [M, 1] columns set side by side.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws
import proofs.«114670_j86131274154741_1_alg».proof.Proof.LibPlainLayers
import proofs.«114670_j86131274154741_1_alg».proof.Proof.LibGraphConv
import proofs.«114670_j86131274154741_1_alg».proof.Proof.LibLogistic

noncomputable section

open scoped BigOperators

namespace Cert.GruLayers

open Idealize.ShloMosaic Idealize.ShloMosaic.ValueIdx

/-! ## One cell on the extended reals -/

/-- The single-precision word of 1.0, as the extended real it denotes. -/
abbrev oneW : EReal := Ideal.ofBits .f32 0x3F800000#32

/-- Position of hidden unit c's reset gate among the six gate entries. -/
def gr (c : Fin 2) : Fin 6 := ⟨c.val, by have := c.isLt; omega⟩
/-- Position of hidden unit c's update gate. -/
def gz (c : Fin 2) : Fin 6 := ⟨2 + c.val, by have := c.isLt; omega⟩
/-- Position of hidden unit c's candidate entry. -/
def gn (c : Fin 2) : Fin 6 := ⟨4 + c.val, by have := c.isLt; omega⟩

/-- An affine map applied to one row: ∑ₖ v k · W j k + b j. -/
def lin {K N : ℕ} (W : Fin N → Fin K → EReal) (b : Fin N → EReal) (v : Fin K → EReal) (j : Fin N) : EReal :=
  (∑ k : Fin K, v k * W j k) + b j

/-- The gate arithmetic of one hidden unit from the two gate vectors and the unit's previous value. -/
def gate (gi gh : Fin 6 → EReal) (h : EReal) (c : Fin 2) : EReal :=
  (oneW - Ideal.logistic (gi (gz c) + gh (gz c)))
      * Ideal.tanh (gi (gn c) + Ideal.logistic (gi (gr c) + gh (gr c)) * gh (gn c))
    + Ideal.logistic (gi (gz c) + gh (gz c)) * h

/-- One cell: input x, previous state h, new state at unit c. -/
def cell (Wi Wh : Fin 6 → Fin 2 → EReal) (bi bh : Fin 6 → EReal) (x h : Fin 2 → EReal) (c : Fin 2) : EReal :=
  gate (lin Wi bi x) (lin Wh bh h) (h c) c

/-- A cell depends on its input and previous state only through their entries. -/
theorem cell_congr {Wi Wh : Fin 6 → Fin 2 → EReal} {bi bh : Fin 6 → EReal} {x x' h h' : Fin 2 → EReal}
    (hx : ∀ k, x k = x' k) (hh : ∀ k, h k = h' k) (c : Fin 2) :
    cell Wi Wh bi bh x h c = cell Wi Wh bi bh x' h' c := by
  rw [funext hx, funext hh]

/-- An affine map depends on its row only through the row's entries. -/
theorem lin_congr {K N : ℕ} {W : Fin N → Fin K → EReal} {b : Fin N → EReal} {v v' : Fin K → EReal}
    (hv : ∀ k, v k = v' k) (j : Fin N) : lin W b v j = lin W b v' j := by
  rw [funext hv]

/-! ## A dense layer with transposed weights, in the two spellings -/

variable {M K N : ℕ}

/-- Kernel body: rows times the transpose of the weights into a zero accumulator, plus a [1, N] bias row repeated down
    the rows. -/
theorem denseK_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![N, K]⟩ .f32)
    (ht : (⟨2, ![N, K]⟩ : Shape).Transposes [1, 0] ⟨2, ![K, N]⟩) (b : FVec Ideal ⟨2, ![1, N]⟩ .f32)
    (hb : (⟨2, ![1, N]⟩ : Shape).Broadcasts ⟨2, ![M, N]⟩) (p : Fin M) (j : Fin N) :
    addf (matmul D prec h (transpose ⟨2, ![K, N]⟩ [1, 0] w ht) (constant ⟨2, ![M, N]⟩ .f32 0x00000000#32))
        (broadcastTo ⟨2, ![M, N]⟩ b hb) (ix2 p j)
      = lin (fun j k => w (ix2 j k)) (fun j => b (ix2 (0 : Fin 1) j)) (fun k => h (ix2 p k)) j := by
  unfold lin
  exact congrArg₂ (· + ·)
    ((Cert.PlainLayers.plainMM_of_eq D hD prec h _ p j).trans
      (Finset.sum_congr rfl fun k _ => congrArg (h (ix2 p k) * ·) (transpose_ix2_apply w ht k j)))
    (broadcastTo_1b_ab_apply _ hb p j)

/-- An [N] vector laid as a [1, N] row by the host reads, at (u, j), the vector at j. -/
theorem rowOfVec_apply {α : Type} (h : (⟨1, ![N]⟩ : Shape).BroadcastsInDim ⟨2, ![1, N]⟩ ![1])
    (v : (⟨1, ![N]⟩ : Shape).Idx → α) (u : Fin 1) (j : Fin N) :
    broadcastInDim ⟨2, ![1, N]⟩ ![1] h v (ix2 u j) = v (ix1 j) := by
  refine broadcastInDim_apply ![1] h v (ix2 u j) (ix1 j) fun ax => ?_
  match ax with
  | ⟨0, _⟩ =>
    show j.val = if N = 1 then 0 else j.val
    split
    · have := j.isLt; omega
    · rfl

/-- Host program: rows times the transpose of the weights, plus an [N] bias laid as a row and repeated down the rows. -/
theorem denseH_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![N, K]⟩ .f32)
    (ht : (⟨2, ![N, K]⟩ : Shape).Transposes [1, 0] ⟨2, ![K, N]⟩) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (j : Fin N) :
    addf (Host.dotGeneral D prec x (transpose ⟨2, ![K, N]⟩ [1, 0] w ht))
        (broadcastInDim ⟨2, ![M, N]⟩ ![0, 1] h2 (broadcastInDim ⟨2, ![1, N]⟩ ![1] h1 b)) (ix2 p j)
      = lin (fun j k => w (ix2 j k)) (fun j => b (ix1 j)) (fun k => x (ix2 p k)) j := by
  unfold lin
  exact congrArg₂ (· + ·)
    ((Cert.GraphConv.hostMM_apply D hD prec x _ p j).trans
      (Finset.sum_congr rfl fun k _ => congrArg (x (ix2 p k) * ·) (transpose_ix2_apply w ht k j)))
    ((broadcastInDim_oneRow_apply h2 _ p j).trans (rowOfVec_apply h1 b 0 j))

/-! ## The gate arithmetic on whole gate arrays -/

section gates
variable (gi gh : FVec Ideal ⟨2, ![M, 6]⟩ .f32) (h : FVec Ideal ⟨2, ![M, 2]⟩ .f32)
  (s0 : (⟨2, ![M, 6]⟩ : Shape).Slices ![0, 0] ⟨2, ![M, 2]⟩)
  (s2 : (⟨2, ![M, 6]⟩ : Shape).Slices ![0, 2] ⟨2, ![M, 2]⟩)
  (s4 : (⟨2, ![M, 6]⟩ : Shape).Slices ![0, 4] ⟨2, ![M, 2]⟩) (p : Fin M) (c : Fin 2)

theorem cut_r (X : FVec Ideal ⟨2, ![M, 6]⟩ .f32) :
    extractStridedSlice ⟨2, ![M, 2]⟩ ![0, 0] X s0 (ix2 p c) = X (ix2 p (gr c)) :=
  slice2_axis1_apply 0 X s0 p c (gr c) (Nat.zero_add _).symm

theorem cut_z (X : FVec Ideal ⟨2, ![M, 6]⟩ .f32) :
    extractStridedSlice ⟨2, ![M, 2]⟩ ![0, 2] X s2 (ix2 p c) = X (ix2 p (gz c)) :=
  slice2_axis1_apply 2 X s2 p c (gz c) rfl

theorem cut_n (X : FVec Ideal ⟨2, ![M, 6]⟩ .f32) :
    extractStridedSlice ⟨2, ![M, 2]⟩ ![0, 4] X s4 (ix2 p c) = X (ix2 p (gn c)) :=
  slice2_axis1_apply 4 X s4 p c (gn c) rfl

/-- Kernel body: the gates with the logistic function as one operation. -/
theorem gateK_apply :
    addf
      (mulf
        (subf (broadcast ⟨2, ![M, 2]⟩ (Scalar.ofBits (F := Ideal) .f32 0x3F800000#32))
          (logistic (addf (extractStridedSlice ⟨2, ![M, 2]⟩ ![0, 2] gi s2) (extractStridedSlice ⟨2, ![M, 2]⟩ ![0, 2] gh s2))))
        (tanh (addf (extractStridedSlice ⟨2, ![M, 2]⟩ ![0, 4] gi s4)
          (mulf (logistic (addf (extractStridedSlice ⟨2, ![M, 2]⟩ ![0, 0] gi s0) (extractStridedSlice ⟨2, ![M, 2]⟩ ![0, 0] gh s0)))
            (extractStridedSlice ⟨2, ![M, 2]⟩ ![0, 4] gh s4)))))
      (mulf (logistic (addf (extractStridedSlice ⟨2, ![M, 2]⟩ ![0, 2] gi s2) (extractStridedSlice ⟨2, ![M, 2]⟩ ![0, 2] gh s2))) h)
      (ix2 p c)
      = gate (fun j => gi (ix2 p j)) (fun j => gh (ix2 p j)) (h (ix2 p c)) c := by
  unfold gate
  show (oneW - Ideal.logistic (extractStridedSlice ⟨2, ![M, 2]⟩ ![0, 2] gi s2 (ix2 p c) + extractStridedSlice ⟨2, ![M, 2]⟩ ![0, 2] gh s2 (ix2 p c)))
        * Ideal.tanh (extractStridedSlice ⟨2, ![M, 2]⟩ ![0, 4] gi s4 (ix2 p c)
            + Ideal.logistic (extractStridedSlice ⟨2, ![M, 2]⟩ ![0, 0] gi s0 (ix2 p c) + extractStridedSlice ⟨2, ![M, 2]⟩ ![0, 0] gh s0 (ix2 p c))
              * extractStridedSlice ⟨2, ![M, 2]⟩ ![0, 4] gh s4 (ix2 p c))
      + Ideal.logistic (extractStridedSlice ⟨2, ![M, 2]⟩ ![0, 2] gi s2 (ix2 p c) + extractStridedSlice ⟨2, ![M, 2]⟩ ![0, 2] gh s2 (ix2 p c))
        * h (ix2 p c) = _
  rw [cut_r s0 p c gi, cut_r s0 p c gh, cut_z s2 p c gi, cut_z s2 p c gh, cut_n s4 p c gi, cut_n s4 p c gh]

/-- The host's array of ones: the scalar 1.0 broadcast to [M, 2]. -/
abbrev onesH (hone : (⟨0, ![]⟩ : Shape).BroadcastsInDim ⟨2, ![M, 2]⟩ ![]) : FVec Ideal ⟨2, ![M, 2]⟩ .f32 :=
  broadcastInDim ⟨2, ![M, 2]⟩ ![] hone (constant ⟨0, ![]⟩ .f32 0x3F800000#32)

theorem onesH_apply (hone : (⟨0, ![]⟩ : Shape).BroadcastsInDim ⟨2, ![M, 2]⟩ ![]) (i : (⟨2, ![M, 2]⟩ : Shape).Idx) :
    onesH hone i = oneW :=
  broadcastInDim_scalar_apply hone _ i

/-- Host program: the gates with the logistic function spelt 1 / (1 + e^(−x)). -/
theorem gateH_apply (hone : (⟨0, ![]⟩ : Shape).BroadcastsInDim ⟨2, ![M, 2]⟩ ![]) :
    addf
      (mulf
        (subf (onesH hone)
          (Host.divf (onesH hone) (addf (onesH hone) (Host.exp (Host.negf
            (addf (extractStridedSlice ⟨2, ![M, 2]⟩ ![0, 2] gi s2) (extractStridedSlice ⟨2, ![M, 2]⟩ ![0, 2] gh s2)))))))
        (Host.tanh (addf (extractStridedSlice ⟨2, ![M, 2]⟩ ![0, 4] gi s4)
          (mulf
            (Host.divf (onesH hone) (addf (onesH hone) (Host.exp (Host.negf
              (addf (extractStridedSlice ⟨2, ![M, 2]⟩ ![0, 0] gi s0) (extractStridedSlice ⟨2, ![M, 2]⟩ ![0, 0] gh s0))))))
            (extractStridedSlice ⟨2, ![M, 2]⟩ ![0, 4] gh s4)))))
      (mulf
        (Host.divf (onesH hone) (addf (onesH hone) (Host.exp (Host.negf
          (addf (extractStridedSlice ⟨2, ![M, 2]⟩ ![0, 2] gi s2) (extractStridedSlice ⟨2, ![M, 2]⟩ ![0, 2] gh s2))))))
        h)
      (ix2 p c)
      = gate (fun j => gi (ix2 p j)) (fun j => gh (ix2 p j)) (h (ix2 p c)) c := by
  unfold gate
  show (onesH hone (ix2 p c) - Ideal.div (onesH hone (ix2 p c)) (onesH hone (ix2 p c) + Ideal.exp (-(extractStridedSlice ⟨2, ![M, 2]⟩ ![0, 2] gi s2 (ix2 p c) + extractStridedSlice ⟨2, ![M, 2]⟩ ![0, 2] gh s2 (ix2 p c)))))
        * Ideal.tanh (extractStridedSlice ⟨2, ![M, 2]⟩ ![0, 4] gi s4 (ix2 p c)
            + Ideal.div (onesH hone (ix2 p c)) (onesH hone (ix2 p c) + Ideal.exp (-(extractStridedSlice ⟨2, ![M, 2]⟩ ![0, 0] gi s0 (ix2 p c) + extractStridedSlice ⟨2, ![M, 2]⟩ ![0, 0] gh s0 (ix2 p c))))
              * extractStridedSlice ⟨2, ![M, 2]⟩ ![0, 4] gh s4 (ix2 p c))
      + Ideal.div (onesH hone (ix2 p c)) (onesH hone (ix2 p c) + Ideal.exp (-(extractStridedSlice ⟨2, ![M, 2]⟩ ![0, 2] gi s2 (ix2 p c) + extractStridedSlice ⟨2, ![M, 2]⟩ ![0, 2] gh s2 (ix2 p c))))
        * h (ix2 p c) = _
  rw [onesH_apply hone (ix2 p c), Cert.Logistic.logistic_spelt, Cert.Logistic.logistic_spelt,
    cut_r s0 p c gi, cut_r s0 p c gh, cut_z s2 p c gi, cut_z s2 p c gh, cut_n s4 p c gi, cut_n s4 p c gh]

end gates

/-! ## A whole cell on arrays of rows -/

section cells
variable (D : DotDims ⟨2, ![M, 2]⟩ ⟨2, ![2, 6]⟩ ⟨2, ![M, 6]⟩) (prec : Option ContractPrecision)
  (x h : FVec Ideal ⟨2, ![M, 2]⟩ .f32) (wi wh : FVec Ideal ⟨2, ![6, 2]⟩ .f32)
  (ht : (⟨2, ![6, 2]⟩ : Shape).Transposes [1, 0] ⟨2, ![2, 6]⟩)
  (s0 : (⟨2, ![M, 6]⟩ : Shape).Slices ![0, 0] ⟨2, ![M, 2]⟩)
  (s2 : (⟨2, ![M, 6]⟩ : Shape).Slices ![0, 2] ⟨2, ![M, 2]⟩)
  (s4 : (⟨2, ![M, 6]⟩ : Shape).Slices ![0, 4] ⟨2, ![M, 2]⟩) (p : Fin M) (c : Fin 2)

/-- The kernel body's input-gate or hidden-gate array. -/
abbrev gatesK (v : FVec Ideal ⟨2, ![M, 2]⟩ .f32) (w : FVec Ideal ⟨2, ![6, 2]⟩ .f32) (b : FVec Ideal ⟨2, ![1, 6]⟩ .f32)
    (hb : (⟨2, ![1, 6]⟩ : Shape).Broadcasts ⟨2, ![M, 6]⟩) : FVec Ideal ⟨2, ![M, 6]⟩ .f32 :=
  addf (matmul D prec v (transpose ⟨2, ![2, 6]⟩ [1, 0] w ht) (constant ⟨2, ![M, 6]⟩ .f32 0x00000000#32))
    (broadcastTo ⟨2, ![M, 6]⟩ b hb)

/-- One cell as a kernel body spells it, at (p, c): the cell of row p of the input and of the previous state. -/
theorem cellK_apply (hD : D = DotDims.plain M 2 6) (bi bh : FVec Ideal ⟨2, ![1, 6]⟩ .f32)
    (hb : (⟨2, ![1, 6]⟩ : Shape).Broadcasts ⟨2, ![M, 6]⟩) :
    addf
      (mulf
        (subf (broadcast ⟨2, ![M, 2]⟩ (Scalar.ofBits (F := Ideal) .f32 0x3F800000#32))
          (logistic (addf (extractStridedSlice ⟨2, ![M, 2]⟩ ![0, 2] (gatesK D prec ht x wi bi hb) s2)
            (extractStridedSlice ⟨2, ![M, 2]⟩ ![0, 2] (gatesK D prec ht h wh bh hb) s2))))
        (tanh (addf (extractStridedSlice ⟨2, ![M, 2]⟩ ![0, 4] (gatesK D prec ht x wi bi hb) s4)
          (mulf (logistic (addf (extractStridedSlice ⟨2, ![M, 2]⟩ ![0, 0] (gatesK D prec ht x wi bi hb) s0)
              (extractStridedSlice ⟨2, ![M, 2]⟩ ![0, 0] (gatesK D prec ht h wh bh hb) s0)))
            (extractStridedSlice ⟨2, ![M, 2]⟩ ![0, 4] (gatesK D prec ht h wh bh hb) s4)))))
      (mulf (logistic (addf (extractStridedSlice ⟨2, ![M, 2]⟩ ![0, 2] (gatesK D prec ht x wi bi hb) s2)
          (extractStridedSlice ⟨2, ![M, 2]⟩ ![0, 2] (gatesK D prec ht h wh bh hb) s2))) h)
      (ix2 p c)
      = cell (fun j k => wi (ix2 j k)) (fun j k => wh (ix2 j k)) (fun j => bi (ix2 (0 : Fin 1) j)) (fun j => bh (ix2 (0 : Fin 1) j))
          (fun k => x (ix2 p k)) (fun k => h (ix2 p k)) c := by
  refine (gateK_apply _ _ h s0 s2 s4 p c).trans ?_
  unfold cell
  exact congrArg₂ (fun a b => gate a b (h (ix2 p c)) c)
    (funext fun j => denseK_apply D hD prec x wi ht bi hb p j) (funext fun j => denseK_apply D hD prec h wh ht bh hb p j)

/-- The host's input-gate or hidden-gate array. -/
abbrev gatesH (v : FVec Ideal ⟨2, ![M, 2]⟩ .f32) (w : FVec Ideal ⟨2, ![6, 2]⟩ .f32) (b : FVec Ideal ⟨1, ![6]⟩ .f32)
    (h1 : (⟨1, ![6]⟩ : Shape).BroadcastsInDim ⟨2, ![1, 6]⟩ ![1])
    (h2 : (⟨2, ![1, 6]⟩ : Shape).BroadcastsInDim ⟨2, ![M, 6]⟩ ![0, 1]) : FVec Ideal ⟨2, ![M, 6]⟩ .f32 :=
  addf (Host.dotGeneral D prec v (transpose ⟨2, ![2, 6]⟩ [1, 0] w ht))
    (broadcastInDim ⟨2, ![M, 6]⟩ ![0, 1] h2 (broadcastInDim ⟨2, ![1, 6]⟩ ![1] h1 b))

/-- One cell as a host program spells it, from its two gate arrays, at (p, c). -/
theorem cellH_apply (hD : D = DotDims.plain M 2 6) (bi bh : FVec Ideal ⟨1, ![6]⟩ .f32)
    (h1 : (⟨1, ![6]⟩ : Shape).BroadcastsInDim ⟨2, ![1, 6]⟩ ![1])
    (h2 : (⟨2, ![1, 6]⟩ : Shape).BroadcastsInDim ⟨2, ![M, 6]⟩ ![0, 1])
    (hone : (⟨0, ![]⟩ : Shape).BroadcastsInDim ⟨2, ![M, 2]⟩ ![]) :
    addf
      (mulf
        (subf (onesH hone)
          (Host.divf (onesH hone) (addf (onesH hone) (Host.exp (Host.negf
            (addf (extractStridedSlice ⟨2, ![M, 2]⟩ ![0, 2] (gatesH D prec ht x wi bi h1 h2) s2)
              (extractStridedSlice ⟨2, ![M, 2]⟩ ![0, 2] (gatesH D prec ht h wh bh h1 h2) s2)))))))
        (Host.tanh (addf (extractStridedSlice ⟨2, ![M, 2]⟩ ![0, 4] (gatesH D prec ht x wi bi h1 h2) s4)
          (mulf
            (Host.divf (onesH hone) (addf (onesH hone) (Host.exp (Host.negf
              (addf (extractStridedSlice ⟨2, ![M, 2]⟩ ![0, 0] (gatesH D prec ht x wi bi h1 h2) s0)
                (extractStridedSlice ⟨2, ![M, 2]⟩ ![0, 0] (gatesH D prec ht h wh bh h1 h2) s0))))))
            (extractStridedSlice ⟨2, ![M, 2]⟩ ![0, 4] (gatesH D prec ht h wh bh h1 h2) s4)))))
      (mulf
        (Host.divf (onesH hone) (addf (onesH hone) (Host.exp (Host.negf
          (addf (extractStridedSlice ⟨2, ![M, 2]⟩ ![0, 2] (gatesH D prec ht x wi bi h1 h2) s2)
            (extractStridedSlice ⟨2, ![M, 2]⟩ ![0, 2] (gatesH D prec ht h wh bh h1 h2) s2))))))
        h)
      (ix2 p c)
      = cell (fun j k => wi (ix2 j k)) (fun j k => wh (ix2 j k)) (fun j => bi (ix1 j)) (fun j => bh (ix1 j))
          (fun k => x (ix2 p k)) (fun k => h (ix2 p k)) c := by
  refine (gateH_apply _ _ h s0 s2 s4 p c hone).trans ?_
  unfold cell
  exact congrArg₂ (fun a b => gate a b (h (ix2 p c)) c)
    (funext fun j => denseH_apply D hD prec x wi ht bi h1 h2 p j) (funext fun j => denseH_apply D hD prec h wh ht bh h1 h2 p j)

end cells

/-! ## Arrays set side by side, and columns cut out -/

section layout
variable {α : Type}

/-- Two [M, 1] columns set side by side: at (p, k) the first column's entry of row p for k = 0, the second's otherwise. -/
theorem pair_cols_apply (a b : (⟨2, ![M, 1]⟩ : Shape).Idx → α)
    (hc : Shape.Concatenates [(⟨2, ![M, 1]⟩ : Shape), ⟨2, ![M, 1]⟩] ⟨2, ![M, 2]⟩ 1) (p : Fin M) (k : Fin 2) :
    concatenate ⟨2, ![M, 2]⟩ 1 [⟨⟨2, ![M, 1]⟩, a⟩, ⟨⟨2, ![M, 1]⟩, b⟩] hc (ix2 p k)
      = if k.val = 0 then a (ix2 p (0 : Fin 1)) else b (ix2 p (0 : Fin 1)) := by
  split
  · next hk =>
    refine concatenate_pair_apply_left 1 a b hc (ix2 p k) rfl (ix2 p (0 : Fin 1)) fun bx => ?_
    match bx with
    | ⟨0, _⟩ => rfl
    | ⟨1, _⟩ => exact hk.symm
  · next hk =>
    refine concatenate_pair_apply_right 1 a b hc (ix2 p k) rfl rfl (ix2 p (0 : Fin 1)) (fun bx hne => ?_) ?_
    · match bx with
      | ⟨0, _⟩ => rfl
      | ⟨1, _⟩ => exact absurd rfl hne
    · show 0 + 1 = k.val
      have := k.isLt; omega

/-- An [M, 4] array and an [M, 2] array set side by side: at (p, q) the first for q < 4, the second at q − 4 otherwise. -/
theorem cols42_apply (a : (⟨2, ![M, 4]⟩ : Shape).Idx → α) (b : (⟨2, ![M, 2]⟩ : Shape).Idx → α)
    (hc : Shape.Concatenates [(⟨2, ![M, 4]⟩ : Shape), ⟨2, ![M, 2]⟩] ⟨2, ![M, 6]⟩ 1) (p : Fin M) (q : Fin 6) :
    concatenate ⟨2, ![M, 6]⟩ 1 [⟨⟨2, ![M, 4]⟩, a⟩, ⟨⟨2, ![M, 2]⟩, b⟩] hc (ix2 p q)
      = if hq : q.val < 4 then a (ix2 p ⟨q.val, hq⟩) else b (ix2 p ⟨q.val - 4, by have := q.isLt; omega⟩) := by
  split
  · next hq =>
    refine concatenate_pair_apply_left 1 a b hc (ix2 p q) rfl (ix2 p ⟨q.val, hq⟩) fun bx => ?_
    match bx with
    | ⟨0, _⟩ => rfl
    | ⟨1, _⟩ => rfl
  · next hq =>
    refine concatenate_pair_apply_right 1 a b hc (ix2 p q) rfl rfl (ix2 p ⟨q.val - 4, by have := q.isLt; omega⟩) (fun bx hne => ?_) ?_
    · match bx with
      | ⟨0, _⟩ => rfl
      | ⟨1, _⟩ => exact absurd rfl hne
    · show q.val - 4 + 4 = q.val
      omega

/-- A column cut out of a band of columns of an array: column o of the band that starts at column b is column b + o. -/
theorem col_of_band_apply {n w : ℕ} (b o : ℕ) (X : (⟨2, ![M, n]⟩ : Shape).Idx → α)
    (hb : (⟨2, ![M, n]⟩ : Shape).Slices ![0, b] ⟨2, ![M, w]⟩) (ho : (⟨2, ![M, w]⟩ : Shape).Slices ![0, o] ⟨2, ![M, 1]⟩)
    (p : Fin M) (u : Fin 1) (j : Fin w) (hj : j.val = o) (k : Fin n) (hk : k.val = b + o) :
    extractStridedSlice ⟨2, ![M, 1]⟩ ![0, o] (extractStridedSlice ⟨2, ![M, w]⟩ ![0, b] X hb) ho (ix2 p u) = X (ix2 p k) :=
  (slice2_axis1_apply o _ ho p u j (by have := u.isLt; omega)).trans (slice2_axis1_apply b X hb p j k (by omega))

/-- A band of columns with a unit middle axis put in by the host reads, at (p, u, j), the band at (p, j). -/
theorem band_mid_apply {n : ℕ} (h : (⟨2, ![M, n]⟩ : Shape).BroadcastsInDim ⟨3, ![M, 1, n]⟩ ![0, 2])
    (X : (⟨2, ![M, n]⟩ : Shape).Idx → α) (p : Fin M) (u : Fin 1) (j : Fin n) :
    broadcastInDim ⟨3, ![M, 1, n]⟩ ![0, 2] h X (ix3 p u j) = X (ix2 p j) := by
  refine broadcastInDim_apply ![0, 2] h X (ix3 p u j) (ix2 p j) fun ax => ?_
  match ax with
  | ⟨0, _⟩ =>
    show p.val = if M = 1 then 0 else p.val
    split
    · have := p.isLt; omega
    · rfl
  | ⟨1, _⟩ =>
    show j.val = if n = 1 then 0 else j.val
    split
    · have := j.isLt; omega
    · rfl

/-- Two [M, 1, n] arrays stacked along the middle axis: at (p, k, j) the first for k = 0, the second otherwise. -/
theorem stack_apply {n : ℕ} (a b : (⟨3, ![M, 1, n]⟩ : Shape).Idx → α)
    (hc : Shape.Concatenates [(⟨3, ![M, 1, n]⟩ : Shape), ⟨3, ![M, 1, n]⟩] ⟨3, ![M, 2, n]⟩ 1) (p : Fin M) (k : Fin 2) (j : Fin n) :
    concatenate ⟨3, ![M, 2, n]⟩ 1 [⟨⟨3, ![M, 1, n]⟩, a⟩, ⟨⟨3, ![M, 1, n]⟩, b⟩] hc (ix3 p k j)
      = if k.val = 0 then a (ix3 p (0 : Fin 1) j) else b (ix3 p (0 : Fin 1) j) := by
  split
  · next hk =>
    refine concatenate_pair_apply_left 1 a b hc (ix3 p k j) rfl (ix3 p (0 : Fin 1) j) fun bx => ?_
    match bx with
    | ⟨0, _⟩ => rfl
    | ⟨1, _⟩ => exact hk.symm
    | ⟨2, _⟩ => rfl
  · next hk =>
    refine concatenate_pair_apply_right 1 a b hc (ix3 p k j) rfl rfl (ix3 p (0 : Fin 1) j) (fun bx hne => ?_) ?_
    · match bx with
      | ⟨0, _⟩ => rfl
      | ⟨1, _⟩ => exact absurd rfl hne
      | ⟨2, _⟩ => rfl
    · show 0 + 1 = k.val
      have := k.isLt; omega

/-- One position o of the last axis of an [M, 2, n] array cut out and its unit axis dropped: at (p, k) the array at (p, k, o). -/
theorem cut_last_apply {n : ℕ} (o : ℕ) (J : (⟨3, ![M, 2, n]⟩ : Shape).Idx → α)
    (hs : (⟨3, ![M, 2, n]⟩ : Shape).Slices ![0, 0, o] ⟨3, ![M, 2, 1]⟩)
    (hc : (⟨3, ![M, 2, 1]⟩ : Shape).ShapeCasts ⟨2, ![M, 2]⟩) (p : Fin M) (k : Fin 2) (j : Fin n) (hj : j.val = o) :
    shapeCast ⟨2, ![M, 2]⟩ (extractStridedSlice ⟨3, ![M, 2, 1]⟩ ![0, 0, o] J hs) hc (ix2 p k) = J (ix3 p k j) := by
  refine (shapeCast_apply _ hc (ix2 p k) (ix3 p k (0 : Fin 1)) ?_).trans ?_
  · rw [Shape.rowMajor_val_three, Shape.rowMajor_val_two]
    show (p.val * 2 + k.val) * 1 + 0 = p.val * 2 + k.val
    omega
  · refine extractStridedSlice_apply _ J hs _ (ix3 p k j) fun ax => ?_
    match ax with
    | ⟨0, _⟩ => exact (Nat.zero_add _).symm
    | ⟨1, _⟩ => exact (Nat.zero_add _).symm
    | ⟨2, _⟩ => exact hj.trans (Nat.add_zero _).symm

/-- Seven [M, 1] columns set side by side: at (p, i) column i's entry of row p. -/
theorem seven_cols_apply (a0 a1 a2 a3 a4 a5 a6 : (⟨2, ![M, 1]⟩ : Shape).Idx → α)
    (hc : Shape.Concatenates [(⟨2, ![M, 1]⟩ : Shape), ⟨2, ![M, 1]⟩, ⟨2, ![M, 1]⟩, ⟨2, ![M, 1]⟩, ⟨2, ![M, 1]⟩, ⟨2, ![M, 1]⟩, ⟨2, ![M, 1]⟩] ⟨2, ![M, 7]⟩ 1)
    (p : Fin M) (i : Fin 7) :
    concatenate ⟨2, ![M, 7]⟩ 1 [⟨⟨2, ![M, 1]⟩, a0⟩, ⟨⟨2, ![M, 1]⟩, a1⟩, ⟨⟨2, ![M, 1]⟩, a2⟩, ⟨⟨2, ![M, 1]⟩, a3⟩, ⟨⟨2, ![M, 1]⟩, a4⟩, ⟨⟨2, ![M, 1]⟩, a5⟩, ⟨⟨2, ![M, 1]⟩, a6⟩] hc (ix2 p i)
      = (![a0, a1, a2, a3, a4, a5, a6] : Fin 7 → (⟨2, ![M, 1]⟩ : Shape).Idx → α) i (ix2 p (0 : Fin 1)) := by
  have key : ∀ (n : ℕ) (hn : n < 7) (x : (⟨2, ![M, 1]⟩ : Shape).Idx → α),
      ([⟨⟨2, ![M, 1]⟩, a0⟩, ⟨⟨2, ![M, 1]⟩, a1⟩, ⟨⟨2, ![M, 1]⟩, a2⟩, ⟨⟨2, ![M, 1]⟩, a3⟩, ⟨⟨2, ![M, 1]⟩, a4⟩, ⟨⟨2, ![M, 1]⟩, a5⟩, ⟨⟨2, ![M, 1]⟩, a6⟩] : List ((s : Shape) × (s.Idx → α)))[n]'hn = ⟨⟨2, ![M, 1]⟩, x⟩ →
      i.val = n →
      concatenate ⟨2, ![M, 7]⟩ 1 [⟨⟨2, ![M, 1]⟩, a0⟩, ⟨⟨2, ![M, 1]⟩, a1⟩, ⟨⟨2, ![M, 1]⟩, a2⟩, ⟨⟨2, ![M, 1]⟩, a3⟩, ⟨⟨2, ![M, 1]⟩, a4⟩, ⟨⟨2, ![M, 1]⟩, a5⟩, ⟨⟨2, ![M, 1]⟩, a6⟩] hc (ix2 p i) = x (ix2 p (0 : Fin 1)) := by
    intro n hn x hx hi
    refine concatenate_apply_piece 1
      ([⟨⟨2, ![M, 1]⟩, a0⟩, ⟨⟨2, ![M, 1]⟩, a1⟩, ⟨⟨2, ![M, 1]⟩, a2⟩, ⟨⟨2, ![M, 1]⟩, a3⟩, ⟨⟨2, ![M, 1]⟩, a4⟩, ⟨⟨2, ![M, 1]⟩, a5⟩, ⟨⟨2, ![M, 1]⟩, a6⟩] : List ((s : Shape) × (s.Idx → α)))
      hc (ix2 p i) n hn ⟨2, ![M, 1]⟩ x hx rfl n ?_ (ix2 p (0 : Fin 1)) (fun bx hne => ?_) ?_
    · interval_cases n <;> rfl
    · match bx with
      | ⟨0, _⟩ => rfl
      | ⟨1, _⟩ => exact absurd rfl hne
    · show n + 0 = i.val
      omega
  match i with
  | ⟨0, _⟩ => exact key 0 (by omega) a0 rfl rfl
  | ⟨1, _⟩ => exact key 1 (by omega) a1 rfl rfl
  | ⟨2, _⟩ => exact key 2 (by omega) a2 rfl rfl
  | ⟨3, _⟩ => exact key 3 (by omega) a3 rfl rfl
  | ⟨4, _⟩ => exact key 4 (by omega) a4 rfl rfl
  | ⟨5, _⟩ => exact key 5 (by omega) a5 rfl rfl
  | ⟨6, _⟩ => exact key 6 (by omega) a6 rfl rfl

end layout

end Cert.GruLayers

end
-- ==== Proof.LibHostRowMax.lean ====
/-
  General lemma for a host program that takes a maximum along the rows of a matrix, read at the exact (extended-real) instance.

  * `hostRowMax_apply`: the host's one-operand reduce with a maximum body along the last axis of an [a, b] array, from an
    initial value, reads at row p the fold of max over the row's b entries from that initial value. Stated for variable
    extents, so that reading the inserted index stays symbolic whatever the sizes it is used at.
-/
import Idealize.ShloMosaic.Lib.ValueIdx
import Idealize.ShloMosaic.PureOps.Ideal.Laws

noncomputable section

namespace Cert.HostRowMax

open Idealize.ShloMosaic Idealize.ShloMosaic.ValueIdx

/-- The host's maximum along the last axis of an [a, b] array, at row p: the fold of max over k of the array at (p, k), from
    the initial value's one element. -/
theorem hostRowMax_apply {a b : ℕ} {u : Shape} (z : FVec Ideal ⟨2, ![a, b]⟩ .f32) (init : u.Idx → Ideal .f32)
    (h' : (⟨2, ![a, b]⟩ : Shape).ReducesTo [1] ⟨1, ![a]⟩) (hr : (⟨2, ![a, b]⟩ : Shape).Reduces [1] ⟨1, ![a]⟩) (hu : 0 < u.numel)
    (p : Fin a) :
    Host.reduce (FloatOps.maximumf (F := Ideal) (φ := .f32)) z init h' hu (ix1 p)
      = (Finset.univ : Finset (Fin b)).fold max (init (Shape.Idx.first hu)) (fun k => z (ix2 p k)) := by
  haveI : Std.Commutative (FloatOps.maximumf (F := Ideal) (φ := .f32)) := ⟨fun x y => max_comm (x : EReal) y⟩
  haveI : Std.Associative (FloatOps.maximumf (F := Ideal) (φ := .f32)) := ⟨fun x y w => max_assoc (x : EReal) y w⟩
  refine (Host.reduce_eq_fold_single (FloatOps.maximumf (F := Ideal) (φ := .f32)) z init h' hr hu (ix1 p)).trans ?_
  refine congrArg (Finset.fold max (init (Shape.Idx.first hu)) · Finset.univ) (funext fun k => ?_)
  refine congrArg z (funext fun c => Fin.ext ?_)
  rw [hr.lift_val]
  match c with
  | ⟨0, _⟩ => rfl
  | ⟨1, _⟩ => rfl

end Cert.HostRowMax

end
-- ==== Proof.RefRows.lean ====
/-
  The reference's stages as functions of whole arrays, read one entry at a time at the exact (extended-real) instance.

  The reference runs the recurrence on all 16384 query rows at once, its four steps written out one after the other.
  Each step is the same six array functions — gates, cell state, estimate, scores, exponentials, hidden pair — of the
  step before; at row r each is the specification's function of row r of its operands. The logistic function is spelt
  1 / (1 + e^(−x)) here, which is that function on every extended real; a sum along a row starts from the zero word.
-/
import proofs.«114670_j86131274154741_1_alg».proof.Proof.Gen.ReferenceIdeal
import proofs.«114670_j86131274154741_1_alg».proof.Proof.RowSpec
import proofs.«114670_j86131274154741_1_alg».proof.Proof.LibGruLayers
import proofs.«114670_j86131274154741_1_alg».proof.Proof.LibHostRowMax
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

open scoped BigOperators

namespace Cert.RefRows

open Cert.ReferenceIdeal Cert.ReferenceIdeal.Gen Cert.RowSpec Idealize.ShloMosaic Idealize.ShloMosaic.ValueIdx

variable (a0 : FVec Ideal S4096x128 .f32) (a1 : FVec Ideal S16384x128 .f32) (a2 : FVec Ideal S1024x128 .f32)
  (a3 : FVec Ideal S1024x256 .f32) (a4 a5 : FVec Ideal S1024 .f32)

/-- The shared parameters as the reference's arguments give them; the bias is the sum of the two bias vectors. -/
def params : Params :=
  ⟨fun s k => a0 (ix2 s k), fun j k => a2 (ix2 j k), fun j k => a3 (ix2 j k), fun j => a4 (ix1 j) + a5 (ix1 j)⟩

/-! ## The stages -/

/-- The array of ones and the array of zeros the reference broadcasts. -/
abbrev ones : FVec Ideal S16384x256 .f32 := broadcastInDim S16384x256 ![] bcast_S_S16384x256 (constant S_ .f32 0x3F800000#32)
abbrev zeros : FVec Ideal S16384x256 .f32 := broadcastInDim S16384x256 ![] bcast_S_S16384x256 (constant S_ .f32 0x00000000#32)

/-- The queries' contribution to the gates. -/
def xg : FVec Ideal S16384x1024 .f32 :=
  addf (Host.dotGeneral dot_S16384x128_S128x1024_S16384x1024_1_0_0_1_n_n none a1
      (transpose S128x1024 [1, 0] a2 transposes_S1024x128_S128x1024_1_0))
    (broadcastInDim S16384x1024 ![0, 1] bcast_S1x1024_S16384x1024_0_1 (broadcastInDim S1x1024 ![1] bcast_S1024_S1x1024_1 (addf a4 a5)))

/-- The gates of one step from the hidden pairs. -/
def rGates (hr : FVec Ideal S16384x256 .f32) : FVec Ideal S16384x1024 .f32 :=
  addf (xg a1 a2 a4 a5) (Host.dotGeneral dot_S16384x256_S256x1024_S16384x1024_1_0_0_1_n_n none hr
    (transpose S256x1024 [1, 0] a3 transposes_S1024x256_S256x1024_1_0))

/-- The logistic function spelt out. -/
def sig (x : FVec Ideal S16384x256 .f32) : FVec Ideal S16384x256 .f32 := Host.divf ones (addf ones (Host.exp (Host.negf x)))

/-- The new cell states. -/
def rCell (g : FVec Ideal S16384x1024 .f32) (c : FVec Ideal S16384x256 .f32) : FVec Ideal S16384x256 .f32 :=
  addf (mulf (sig (extractStridedSlice S16384x256 ![0, 256] g slices_S16384x1024_S16384x256_0_256)) c)
    (mulf (sig (extractStridedSlice S16384x256 ![0, 0] g slices_S16384x1024_S16384x256_0_0))
      (Host.tanh (extractStridedSlice S16384x256 ![0, 512] g slices_S16384x1024_S16384x256_0_512)))

/-- The new estimates. -/
def rHid (g : FVec Ideal S16384x1024 .f32) (c : FVec Ideal S16384x256 .f32) : FVec Ideal S16384x128 .f32 :=
  addf a1 (extractStridedSlice S16384x128 ![0, 0]
    (mulf (sig (extractStridedSlice S16384x256 ![0, 768] g slices_S16384x1024_S16384x256_0_768)) (Host.tanh c))
    slices_S16384x256_S16384x128_0_0)

/-- The scores against the support set. -/
def rScore (h : FVec Ideal S16384x128 .f32) : FVec Ideal S16384x4096 .f32 :=
  Host.dotGeneral dot_S16384x128_S128x4096_S16384x4096_1_0_0_1_n_n none h
    (transpose S128x4096 [1, 0] a0 transposes_S4096x128_S128x4096_1_0)

/-- The exponentials of the scores less each row's largest. -/
def rExp (s : FVec Ideal S16384x4096 .f32) : FVec Ideal S16384x4096 .f32 :=
  Host.exp (subf s (broadcastInDim S16384x4096 ![0, 1] bcast_S16384x1_S16384x4096_0_1
    (broadcastInDim S16384x1 ![0] bcast_S16384_S16384x1_0
      (maximumf (broadcastInDim S16384 ![] bcast_S_S16384 (constant S_ .f32 0xFF800000#32))
        (Host.reduce FloatOps.maximumf s (constant S_ .f32 0xFF800000#32) reducesTo_S16384x4096_S16384_d1 h_S_)))))

/-- The new hidden pairs: the estimates beside their attention read-outs. -/
def rCarry (h : FVec Ideal S16384x128 .f32) (e : FVec Ideal S16384x4096 .f32) : FVec Ideal S16384x256 .f32 :=
  concatenate S16384x256 1 [⟨S16384x128, h⟩, ⟨S16384x128,
    Host.dotGeneral dot_S16384x4096_S4096x128_S16384x128_1_0_0_1_n_n none
      (Host.divf e (broadcastInDim S16384x4096 ![0, 1] bcast_S16384x1_S16384x4096_0_1
        (broadcastInDim S16384x1 ![0] bcast_S16384_S16384x1_0
          (Host.reduceAdd e (constant S_ .f32 0x00000000#32) reducesTo_S16384x4096_S16384_d1 h_S_)))) a0⟩]
    concatenates_S16384x128_S16384x128_S16384x256_d1

/-! ## Small readings -/

theorem ones_apply (i : S16384x256.Idx) : ones i = Ideal.ofBits .f32 0x3F800000#32 :=
  broadcastInDim_scalar_apply bcast_S_S16384x256 _ i

theorem zeros_apply (i : S16384x256.Idx) : zeros i = zeroW :=
  broadcastInDim_scalar_apply bcast_S_S16384x256 _ i

/-- The host's exponential and hyperbolic tangent of an array at an index. -/
theorem hostExp_at {s : Shape} (a : FVec Ideal s .f32) (i : s.Idx) : Host.exp a i = Ideal.exp (a i) := rfl
theorem hostTanh_at {s : Shape} (a : FVec Ideal s .f32) (i : s.Idx) : Host.tanh a i = Ideal.tanh (a i) := rfl

/-- The spelt-out logistic function at an index. -/
theorem sig_apply (x : FVec Ideal S16384x256 .f32) (i : S16384x256.Idx) : sig x i = Ideal.logistic (x i) := by
  unfold sig
  refine (hostDivf_apply ones _ i).trans ?_
  refine (congrArg₂ Ideal.div (ones_apply i) ((addf_apply ones _ i).trans (congrArg₂ (· + ·) (ones_apply i) rfl))).trans ?_
  exact Cert.Logistic.logistic_spelt (x i)

/-- An [a] vector laid as an [a, 1] column by the host reads, at (p, u), the vector at p. -/
theorem colOfVec_apply {α : Type} {a : ℕ} (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A per-row number laid as a column and then along the row reads, at (r, s), the number of row r. -/
theorem perRow_apply (v : FVec Ideal S16384 .f32) (r : Fin 16384) (s : Fin 4096) :
    broadcastInDim S16384x4096 ![0, 1] bcast_S16384x1_S16384x4096_0_1
      (broadcastInDim S16384x1 ![0] bcast_S16384_S16384x1_0 v) (ix2 r s) = v (ix1 r) :=
  (Cert.GraphConv.hostCol_apply bcast_S16384x1_S16384x4096_0_1 _ r s).trans (colOfVec_apply bcast_S16384_S16384x1_0 v r 0)

theorem reduces_rows : S16384x4096.Reduces [1] S16384 := by decide

/-! ## The stages at one entry -/

theorem xg_row (r : Fin 16384) : row (xg a1 a2 a4 a5) r = inProj (params a0 a2 a3 a4 a5) (row a1 r) :=
  funext fun j => by
    unfold xg
    exact Cert.GruLayers.denseH_apply dot_S16384x128_S128x1024_S16384x1024_1_0_0_1_n_n rfl none a1 a2
      transposes_S1024x128_S128x1024_1_0 (addf a4 a5) bcast_S1024_S1x1024_1 bcast_S1x1024_S16384x1024_0_1 r j

theorem rGates_row (hr : FVec Ideal S16384x256 .f32) (r : Fin 16384) :
    row (rGates a1 a2 a3 a4 a5 hr) r = gates (params a0 a2 a3 a4 a5) (row a1 r) (row hr r) :=
  funext fun j => by
    unfold rGates gates
    refine (addf_apply _ _ (ix2 r j)).trans ?_
    exact congrArg₂ (· + ·) (congrFun (xg_row a0 a1 a2 a3 a4 a5 r) j)
      ((Cert.GraphConv.hostMM_apply dot_S16384x256_S256x1024_S16384x1024_1_0_0_1_n_n rfl none hr
          (transpose S256x1024 [1, 0] a3 transposes_S1024x256_S256x1024_1_0) r j).trans
        (Finset.sum_congr rfl fun k _ => congrArg (hr (ix2 r k) * ·) (transpose_ix2_apply a3 transposes_S1024x256_S256x1024_1_0 k j)))

theorem rCell_row (g : FVec Ideal S16384x1024 .f32) (c : FVec Ideal S16384x256 .f32) (r : Fin 16384) :
    row (rCell g c) r = cell (row g r) (row c r) :=
  funext fun j => by
    unfold rCell cell
    refine (addf_apply _ _ (ix2 r j)).trans ?_
    refine congrArg₂ (· + ·) ((mulf_apply _ c (ix2 r j)).trans (congrArg (· * c (ix2 r j)) ?_))
      ((mulf_apply _ _ (ix2 r j)).trans (congrArg₂ (· * ·) ?_ ?_))
    · exact (sig_apply _ (ix2 r j)).trans
        (congrArg Ideal.logistic (slice2_axis1_apply 256 g slices_S16384x1024_S16384x256_0_256 r j (gF j) rfl))
    · exact (sig_apply _ (ix2 r j)).trans
        (congrArg Ideal.logistic (slice2_axis1_apply 0 g slices_S16384x1024_S16384x256_0_0 r j (gI j) (Nat.zero_add _).symm))
    · exact (hostTanh_at _ (ix2 r j)).trans
        (congrArg Ideal.tanh (slice2_axis1_apply 512 g slices_S16384x1024_S16384x256_0_512 r j (gG j) rfl))

theorem rHid_row (g : FVec Ideal S16384x1024 .f32) (c : FVec Ideal S16384x256 .f32) (r : Fin 16384) :
    row (rHid a1 g c) r = estimate (row a1 r) (row g r) (row c r) :=
  funext fun j => by
    unfold rHid estimate
    refine (addf_apply a1 _ (ix2 r j)).trans (congrArg (a1 (ix2 r j) + ·) ?_)
    refine (slice2_axis1_apply 0 _ slices_S16384x256_S16384x128_0_0 r j (lo j) (Nat.zero_add _).symm).trans ?_
    refine (mulf_apply _ _ (ix2 r (lo j))).trans (congrArg₂ (· * ·) ?_ (hostTanh_at c (ix2 r (lo j))))
    exact (sig_apply _ (ix2 r (lo j))).trans
      (congrArg Ideal.logistic (slice2_axis1_apply 768 g slices_S16384x1024_S16384x256_0_768 r (lo j) (gO (lo j)) rfl))

theorem rScore_row (h : FVec Ideal S16384x128 .f32) (r : Fin 16384) :
    row (rScore a0 h) r = score (params a0 a2 a3 a4 a5) (row h r) :=
  funext fun s => by
    unfold rScore score
    exact (Cert.GraphConv.hostMM_apply dot_S16384x128_S128x4096_S16384x4096_1_0_0_1_n_n rfl none h
        (transpose S128x4096 [1, 0] a0 transposes_S4096x128_S128x4096_1_0) r s).trans
      (Finset.sum_congr rfl fun k _ => congrArg (h (ix2 r k) * ·) (transpose_ix2_apply a0 transposes_S4096x128_S128x4096_1_0 k s))

/-- The exponentials at (r, s). -/
theorem rExp_apply (sc : FVec Ideal S16384x4096 .f32) (r : Fin 16384) (s : Fin 4096) :
    rExp sc (ix2 r s) = Ideal.exp (sc (ix2 r s) - top (row sc r)) := by
  unfold rExp top
  refine (hostExp_at _ (ix2 r s)).trans (congrArg Ideal.exp ((subf_apply sc _ (ix2 r s)).trans (congrArg (sc (ix2 r s) - ·) ?_)))
  refine (perRow_apply _ r s).trans ?_
  refine (maximumf_apply _ _ (ix1 r)).trans ?_
  exact congrArg₂ max (broadcastInDim_scalar_apply bcast_S_S16384 _ _)
    (Cert.HostRowMax.hostRowMax_apply sc (constant S_ .f32 0xFF800000#32) reducesTo_S16384x4096_S16384_d1 reduces_rows h_S_ r)

/-- A row's sum of exponentials, from the zero word. -/
theorem rowSum_apply (e : FVec Ideal S16384x4096 .f32) (r : Fin 16384) :
    Host.reduceAdd e (constant S_ .f32 0x00000000#32) reducesTo_S16384x4096_S16384_d1 h_S_ (ix1 r)
      = ∑ k : Fin 4096, e (ix2 r k) := by
  refine (hostReduceAdd_apply e _ reducesTo_S16384x4096_S16384_d1 h_S_ (ix1 r)).trans ?_
  refine (Ideal.hostReduceAdd_single reducesTo_S16384x4096_S16384_d1 reduces_rows e _ (ix1 r)).trans ?_
  refine (congrArg (· + _) ((constant_apply _ _).trans Ideal.ofBits_zero_f32)).trans ((zero_add _).trans ?_)
  refine Finset.sum_congr rfl fun k _ => congrArg e (funext fun c => Fin.ext ?_)
  rw [reduces_rows.lift_val]
  match c with
  | ⟨0, _⟩ => rfl
  | ⟨1, _⟩ => rfl

/-- The attention read-out at (r, j): the weights of row r against column j of the support set. -/
theorem readout_row (sc : FVec Ideal S16384x4096 .f32) (r : Fin 16384) (j : Fin 128) :
    Host.dotGeneral dot_S16384x4096_S4096x128_S16384x128_1_0_0_1_n_n none
      (Host.divf (rExp sc) (broadcastInDim S16384x4096 ![0, 1] bcast_S16384x1_S16384x4096_0_1
        (broadcastInDim S16384x1 ![0] bcast_S16384_S16384x1_0
          (Host.reduceAdd (rExp sc) (constant S_ .f32 0x00000000#32) reducesTo_S16384x4096_S16384_d1 h_S_)))) a0 (ix2 r j)
      = readout (params a0 a2 a3 a4 a5) (row sc r) j := by
  unfold readout
  refine (Cert.GraphConv.hostMM_apply dot_S16384x4096_S4096x128_S16384x128_1_0_0_1_n_n rfl none _ a0 r j).trans
    (Finset.sum_congr rfl fun s _ => congrArg (· * a0 (ix2 s j)) ?_)
  unfold weight
  refine (hostDivf_apply _ _ (ix2 r s)).trans ?_
  refine congrArg₂ Ideal.div (rExp_apply sc r s) ?_
  refine (perRow_apply _ r s).trans ((rowSum_apply (rExp sc) r).trans ?_)
  exact Finset.sum_congr rfl fun k' _ => rExp_apply sc r k'

theorem rCarry_row (h : FVec Ideal S16384x128 .f32) (sc : FVec Ideal S16384x4096 .f32) (r : Fin 16384) :
    row (rCarry a0 h (rExp sc)) r = join (row h r) (readout (params a0 a2 a3 a4 a5) (row sc r)) :=
  funext fun k => by
    unfold rCarry join
    split
    · next hk =>
      refine concatenate_pair_apply_left 1 h _ concatenates_S16384x128_S16384x128_S16384x256_d1 (ix2 r k) rfl (ix2 r ⟨k.val, hk⟩) fun bx => ?_
      match bx with
      | ⟨0, _⟩ => rfl
      | ⟨1, _⟩ => rfl
    · next hk =>
      have hj : k.val - 128 < 128 := by have := k.isLt; omega
      refine (concatenate_pair_apply_right 1 h _ concatenates_S16384x128_S16384x128_S16384x256_d1 (ix2 r k) rfl rfl
        (ix2 r ⟨k.val - 128, hj⟩) (fun bx hne => ?_) ?_).trans (readout_row a0 a2 a3 a4 a5 sc r ⟨k.val - 128, hj⟩)
      · match bx with
        | ⟨0, _⟩ => rfl
        | ⟨1, _⟩ => exact absurd rfl hne
      · show k.val - 128 + 128 = k.val
        omega

/-! ## One step on one row -/

/-- One step of the reference on whole arrays: from the hidden pairs and cell states, the new hidden pairs, cell states
    and estimates. -/
def rStep (s : FVec Ideal S16384x256 .f32 × FVec Ideal S16384x256 .f32 × FVec Ideal S16384x128 .f32) :
    FVec Ideal S16384x256 .f32 × FVec Ideal S16384x256 .f32 × FVec Ideal S16384x128 .f32 :=
  (rCarry a0 (rHid a1 (rGates a1 a2 a3 a4 a5 s.1) (rCell (rGates a1 a2 a3 a4 a5 s.1) s.2.1))
      (rExp (rScore a0 (rHid a1 (rGates a1 a2 a3 a4 a5 s.1) (rCell (rGates a1 a2 a3 a4 a5 s.1) s.2.1)))),
    rCell (rGates a1 a2 a3 a4 a5 s.1) s.2.1,
    rHid a1 (rGates a1 a2 a3 a4 a5 s.1) (rCell (rGates a1 a2 a3 a4 a5 s.1) s.2.1))

/-- Row r of a triple of arrays. -/
abbrev rows (s : FVec Ideal S16384x256 .f32 × FVec Ideal S16384x256 .f32 × FVec Ideal S16384x128 .f32) (r : Fin 16384) : State :=
  (row s.1 r, row s.2.1 r, row s.2.2 r)

/-- A step of the reference, read at row r, is the specification's step on that row. -/
theorem rStep_rows (s : FVec Ideal S16384x256 .f32 × FVec Ideal S16384x256 .f32 × FVec Ideal S16384x128 .f32) (r : Fin 16384) :
    rows (rStep a0 a1 a2 a3 a4 a5 s) r = step (params a0 a2 a3 a4 a5) (row a1 r) (rows s r) := by
  have hg := rGates_row a0 a1 a2 a3 a4 a5 s.1 r
  have hc := (rCell_row (rGates a1 a2 a3 a4 a5 s.1) s.2.1 r).trans (congrArg (fun g => cell g (row s.2.1 r)) hg)
  have hh := (rHid_row a1 (rGates a1 a2 a3 a4 a5 s.1) (rCell (rGates a1 a2 a3 a4 a5 s.1) s.2.1) r).trans
    (congrArg₂ (fun g c => estimate (row a1 r) g c) hg hc)
  have hs := (rScore_row a0 a2 a3 a4 a5 (rHid a1 (rGates a1 a2 a3 a4 a5 s.1) (rCell (rGates a1 a2 a3 a4 a5 s.1) s.2.1)) r).trans
    (congrArg (score (params a0 a2 a3 a4 a5)) hh)
  have hj := (rCarry_row a0 a2 a3 a4 a5 (rHid a1 (rGates a1 a2 a3 a4 a5 s.1) (rCell (rGates a1 a2 a3 a4 a5 s.1) s.2.1))
      (rScore a0 (rHid a1 (rGates a1 a2 a3 a4 a5 s.1) (rCell (rGates a1 a2 a3 a4 a5 s.1) s.2.1))) r).trans
    (congrArg₂ (fun h sc => join h (readout (params a0 a2 a3 a4 a5) sc)) hh hs)
  exact Prod.ext hj (Prod.ext hc hh)

/-- Four steps. -/
theorem rStep4_rows (s : FVec Ideal S16384x256 .f32 × FVec Ideal S16384x256 .f32 × FVec Ideal S16384x128 .f32) (r : Fin 16384) :
    rows (rStep a0 a1 a2 a3 a4 a5 (rStep a0 a1 a2 a3 a4 a5 (rStep a0 a1 a2 a3 a4 a5 (rStep a0 a1 a2 a3 a4 a5 s)))) r
      = (step (params a0 a2 a3 a4 a5) (row a1 r))^[4] (rows s r) := by
  exact (rStep_rows a0 a1 a2 a3 a4 a5 _ r).trans (congrArg (step (params a0 a2 a3 a4 a5) (row a1 r))
    ((rStep_rows a0 a1 a2 a3 a4 a5 _ r).trans (congrArg (step (params a0 a2 a3 a4 a5) (row a1 r))
      ((rStep_rows a0 a1 a2 a3 a4 a5 _ r).trans (congrArg (step (params a0 a2 a3 a4 a5) (row a1 r))
        (rStep_rows a0 a1 a2 a3 a4 a5 s r))))))

/-- From zero hidden pairs and cell states, the estimate after four steps is the specification's result on each row. -/
theorem result_row (r : Fin 16384) :
    row (rStep a0 a1 a2 a3 a4 a5 (rStep a0 a1 a2 a3 a4 a5 (rStep a0 a1 a2 a3 a4 a5 (rStep a0 a1 a2 a3 a4 a5 (zeros, zeros, a1))))).2.2 r
      = result (params a0 a2 a3 a4 a5) (row a1 r) := by
  have h := congrArg (fun s : State => s.2.2) (rStep4_rows a0 a1 a2 a3 a4 a5 (zeros, zeros, a1) r)
  refine h.trans ?_
  unfold result start
  refine congrArg (fun s : State => ((step (params a0 a2 a3 a4 a5) (row a1 r))^[4] s).2.2) ?_
  exact Prod.ext (funext fun k => zeros_apply (ix2 r k)) (Prod.ext (funext fun k => zeros_apply (ix2 r k)) rfl)

end Cert.RefRows

end
-- ==== Proof.RefValue.lean ====
/-
  The reference's result as the specification's result on every row.

  The reference's run names its intermediate arrays: the queries' contribution to the gates once, then per step the gates,
  the cell states, the estimates, the scores and the exponentials. Each name is one of the whole-array stages applied to
  the names before it, so the estimates after the fourth step are four whole-array steps from zero hidden pairs and cell
  states; read at row r that is the specification's result on query row r.
-/
import proofs.«114670_j86131274154741_1_alg».proof.Proof.Gen.ReferenceIdeal.Run
import proofs.«114670_j86131274154741_1_alg».proof.Proof.RefRows

noncomputable section

namespace Cert.RefValue

open Cert.ReferenceIdeal Cert.ReferenceIdeal.Gen Cert.ReferenceIdeal.Value Cert.RowSpec Cert.RefRows
open Idealize.ShloMosaic Idealize.ShloMosaic.TcCoe Idealize.ShloMosaic.ValueIdx Idealize.ShloMosaic.StableHlo

variable (V0 : Valuation τ sig (Elt Ideal))

/-- The six argument arrays as the run reads them. -/
abbrev A0 : FVec Ideal S4096x128 .f32 := V0 (Proc.devRef .tc main_arg0)
abbrev A1 : FVec Ideal S16384x128 .f32 := V0 (Proc.devRef .tc main_arg1)
abbrev A2 : FVec Ideal S1024x128 .f32 := V0 (Proc.devRef .tc main_arg2)
abbrev A3 : FVec Ideal S1024x256 .f32 := V0 (Proc.devRef .tc main_arg3)
abbrev A4 : FVec Ideal S1024 .f32 := V0 (Proc.devRef .tc main_arg4)
abbrev A5 : FVec Ideal S1024 .f32 := V0 (Proc.devRef .tc main_arg5)

/-! ## The named intermediates are the stages -/

theorem v10_eq : res_main_v10 V0 = rGates (A1 V0) (A2 V0) (A3 V0) (A4 V0) (A5 V0) zeros := rfl
theorem v30_eq : res_main_v30 V0 = rCell (res_main_v10 V0) zeros := rfl
theorem v40_eq : res_main_v40 V0 = rHid (A1 V0) (res_main_v10 V0) (res_main_v30 V0) := rfl
theorem v42_eq : res_main_v42 V0 = rScore (A0 V0) (res_main_v40 V0) := rfl
theorem v49_eq : res_main_v49 V0 = rExp (res_main_v42 V0) := rfl

theorem v58_eq : res_main_v58 V0
    = rGates (A1 V0) (A2 V0) (A3 V0) (A4 V0) (A5 V0) (rCarry (A0 V0) (res_main_v40 V0) (res_main_v49 V0)) := rfl
theorem v78_eq : res_main_v78 V0 = rCell (res_main_v58 V0) (res_main_v30 V0) := rfl
theorem v88_eq : res_main_v88 V0 = rHid (A1 V0) (res_main_v58 V0) (res_main_v78 V0) := rfl
theorem v90_eq : res_main_v90 V0 = rScore (A0 V0) (res_main_v88 V0) := rfl
theorem v97_eq : res_main_v97 V0 = rExp (res_main_v90 V0) := rfl

theorem v106_eq : res_main_v106 V0
    = rGates (A1 V0) (A2 V0) (A3 V0) (A4 V0) (A5 V0) (rCarry (A0 V0) (res_main_v88 V0) (res_main_v97 V0)) := rfl
theorem v126_eq : res_main_v126 V0 = rCell (res_main_v106 V0) (res_main_v78 V0) := rfl
theorem v136_eq : res_main_v136 V0 = rHid (A1 V0) (res_main_v106 V0) (res_main_v126 V0) := rfl
theorem v138_eq : res_main_v138 V0 = rScore (A0 V0) (res_main_v136 V0) := rfl
theorem v145_eq : res_main_v145 V0 = rExp (res_main_v138 V0) := rfl

theorem v154_eq : res_main_v154 V0
    = rGates (A1 V0) (A2 V0) (A3 V0) (A4 V0) (A5 V0) (rCarry (A0 V0) (res_main_v136 V0) (res_main_v145 V0)) := rfl
theorem v184_eq : res_main_v184 V0
    = rHid (A1 V0) (res_main_v154 V0) (rCell (res_main_v154 V0) (res_main_v126 V0)) := rfl

/-! ## Four whole-array steps -/

theorem step1 : rStep (A0 V0) (A1 V0) (A2 V0) (A3 V0) (A4 V0) (A5 V0) (zeros, zeros, A1 V0)
    = (rCarry (A0 V0) (res_main_v40 V0) (res_main_v49 V0), res_main_v30 V0, res_main_v40 V0) := by
  rw [v49_eq, v42_eq, v40_eq, v30_eq, v10_eq]
  rfl

theorem step2 : rStep (A0 V0) (A1 V0) (A2 V0) (A3 V0) (A4 V0) (A5 V0)
      (rCarry (A0 V0) (res_main_v40 V0) (res_main_v49 V0), res_main_v30 V0, res_main_v40 V0)
    = (rCarry (A0 V0) (res_main_v88 V0) (res_main_v97 V0), res_main_v78 V0, res_main_v88 V0) := by
  rw [v97_eq, v90_eq, v88_eq, v78_eq, v58_eq]
  rfl

theorem step3 : rStep (A0 V0) (A1 V0) (A2 V0) (A3 V0) (A4 V0) (A5 V0)
      (rCarry (A0 V0) (res_main_v88 V0) (res_main_v97 V0), res_main_v78 V0, res_main_v88 V0)
    = (rCarry (A0 V0) (res_main_v136 V0) (res_main_v145 V0), res_main_v126 V0, res_main_v136 V0) := by
  rw [v145_eq, v138_eq, v136_eq, v126_eq, v106_eq]
  rfl

/-- The result's named term is the estimates after four whole-array steps. -/
theorem res_eq : res_main_v184 V0
    = (rStep (A0 V0) (A1 V0) (A2 V0) (A3 V0) (A4 V0) (A5 V0) (rStep (A0 V0) (A1 V0) (A2 V0) (A3 V0) (A4 V0) (A5 V0)
        (rStep (A0 V0) (A1 V0) (A2 V0) (A3 V0) (A4 V0) (A5 V0) (rStep (A0 V0) (A1 V0) (A2 V0) (A3 V0) (A4 V0) (A5 V0)
          (zeros, zeros, A1 V0))))).2.2 := by
  rw [step1, step2, step3, v184_eq, v154_eq]
  rfl

/-- The reference's result array is the specification's result on every query row. -/
theorem result_eq : res_main_v184 V0 = resultArray (A0 V0) (A1 V0) (A2 V0) (A3 V0) (A4 V0) (A5 V0) := by
  funext i
  obtain ⟨r, j, rfl⟩ : ∃ (r : Fin 16384) (j : Fin 128), i = ix2 r j := ⟨i 0, i 1, eq_ix2 i⟩
  exact (congrFun (res_eq V0) (ix2 r j)).trans (congrFun (result_row (A0 V0) (A1 V0) (A2 V0) (A3 V0) (A4 V0) (A5 V0) r) j)

end Cert.RefValue

end
-- ==== Proof.lean ====
/-
  Attention-refined query embeddings: a kernel over blocks of 256 query rows against the whole-batch reference.

  Both programs refine each of 16384 query rows four times with a long short-term memory cell whose hidden state is the
  pair (estimate, attention read-out over a support set of 4096 rows); every row is treated alone, so the result is one
  function of the row and of the shared support set, weights and bias (Proof/RowSpec.lean). The kernel computes it 256
  rows at a time inside a four-trip loop, the reference on all rows at once with the four steps written out. On the
  extended reals the two agree entry by entry:
    * a change to a narrower float format before a matrix product is the identity, and a product accumulated into zero
      is the plain sum over the contracted index, which is also what the reference's product is;
    * the kernel's logistic function and the reference's 1 / (1 + e^(−x)) are one function on every extended real;
    * a row's maximum and a row's sum are the same fold of max from minus infinity and the same plain sum on both sides;
    * the bias row the kernel reads is the sum of the two bias vectors the reference adds.
  No law used needs the inputs to be finite, so the precondition is never opened.
  The three programs' runs (termination, no fault, arguments unchanged) are the generated frames; the idealization
  rewrote nothing, so what it must preserve is trivially true.
-/
import proofs.«114670_j86131274154741_1_alg».proof.Defs
import proofs.«114670_j86131274154741_1_alg».proof.Proof.Gen.Kernel
import proofs.«114670_j86131274154741_1_alg».proof.Proof.Gen.Kernel.Skeleton
import proofs.«114670_j86131274154741_1_alg».proof.Proof.Gen.Kernel.Loops
import proofs.«114670_j86131274154741_1_alg».proof.Proof.Gen.Kernel.Launch
import proofs.«114670_j86131274154741_1_alg».proof.Proof.Gen.Kernel.Points
import proofs.«114670_j86131274154741_1_alg».proof.Proof.Gen.Kernel.Frame
import proofs.«114670_j86131274154741_1_alg».proof.Proof.Gen.KernelIdeal
import proofs.«114670_j86131274154741_1_alg».proof.Proof.Gen.KernelIdeal.Skeleton
import proofs.«114670_j86131274154741_1_alg».proof.Proof.Gen.KernelIdeal.Loops
import proofs.«114670_j86131274154741_1_alg».proof.Proof.Gen.KernelIdeal.Launch
import proofs.«114670_j86131274154741_1_alg».proof.Proof.Gen.KernelIdeal.Points
import proofs.«114670_j86131274154741_1_alg».proof.Proof.Gen.KernelIdeal.Frame
import proofs.«114670_j86131274154741_1_alg».proof.Proof.Gen.ReferenceIdeal
import proofs.«114670_j86131274154741_1_alg».proof.Proof.Gen.Pre_finite_inputs
import proofs.«114670_j86131274154741_1_alg».proof.Proof.Gen.KernelIdeal.Value
import proofs.«114670_j86131274154741_1_alg».proof.Proof.Gen.ReferenceIdeal.Run
import proofs.«114670_j86131274154741_1_alg».proof.Proof.KernelValue
import proofs.«114670_j86131274154741_1_alg».proof.Proof.RefValue
import Idealize.ShloMosaic.Adequacy
import Idealize.ShloMosaic.Init

noncomputable section

namespace Cert.Proof

open Idealize.ShloMosaic Idealize.ShloMosaic.TcCoe Idealize.SL.Sem Cert.RowSpec

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array and the reference's are the specification's result on every query
    row, of arguments that agree. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  have h0 : Cert.RefValue.A0 (StableHlo.launchContents m' c) = m ((c.tc : Thread Cert.KernelIdeal.nD Cert.KernelIdeal.τ).loc Cert.KernelIdeal.main_arg0) := e0
  have h1 : Cert.RefValue.A1 (StableHlo.launchContents m' c) = m ((c.tc : Thread Cert.KernelIdeal.nD Cert.KernelIdeal.τ).loc Cert.KernelIdeal.main_arg1) := e1
  have h2 : Cert.RefValue.A2 (StableHlo.launchContents m' c) = m ((c.tc : Thread Cert.KernelIdeal.nD Cert.KernelIdeal.τ).loc Cert.KernelIdeal.main_arg2) := e2
  have h3 : Cert.RefValue.A3 (StableHlo.launchContents m' c) = m ((c.tc : Thread Cert.KernelIdeal.nD Cert.KernelIdeal.τ).loc Cert.KernelIdeal.main_arg3) := e3
  have h4 : Cert.RefValue.A4 (StableHlo.launchContents m' c) = m ((c.tc : Thread Cert.KernelIdeal.nD Cert.KernelIdeal.τ).loc Cert.KernelIdeal.main_arg4) := e4
  have h5 : Cert.RefValue.A5 (StableHlo.launchContents m' c) = m ((c.tc : Thread Cert.KernelIdeal.nD Cert.KernelIdeal.τ).loc Cert.KernelIdeal.main_arg5) := e5
  rw [Cert.RefValue.result_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
